-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S800000 .f32) (main_arg3 : FVec F S512x256 .f32) (main_arg4 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S850000 : Shape := ⟨1, ![850000]⟩
abbrev S850000x1 : Shape := ⟨2, ![850000, 1]⟩
abbrev S850000x128 : Shape := ⟨2, ![850000, 128]⟩
abbrev S50000x512 : Shape := ⟨2, ![50000, 512]⟩
abbrev S50000x256 : Shape := ⟨2, ![50000, 256]⟩
abbrev S2000x512 : Shape := ⟨2, ![2000, 512]⟩
abbrev S2000x256 : Shape := ⟨2, ![2000, 256]⟩
abbrev S1x256 : Shape := ⟨2, ![1, 256]⟩

abbrev nBuf : Space → Nat
  | .hbm => 106
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S512x256, .f32⟩
  | .hbm, ⟨4, _⟩ => ⟨S256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S50000, .i32⟩
  | .hbm, ⟨49, _⟩ => ⟨S850000, .i32⟩
  | .hbm, ⟨50, _⟩ => ⟨S850000, .i32⟩
  | .hbm, ⟨51, _⟩ => ⟨S_, .f32⟩
  | .hbm, ⟨52, _⟩ => ⟨S50000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x128, .f32⟩
  | .hbm, ⟨95, _⟩ => ⟨S850000x1, .f32⟩
  | .hbm, ⟨96, _⟩ => ⟨S850000x128, .f32⟩
  | .hbm, ⟨97, _⟩ => ⟨S850000x128, .f32⟩
  | .hbm, ⟨98, _⟩ => ⟨S_, .f32⟩
  | .hbm, ⟨99, _⟩ => ⟨S50000x128, .f32⟩
  | .hbm, ⟨100, _⟩ => ⟨S850000x1, .i32⟩
  | .hbm, ⟨101, _⟩ => ⟨S50000x128, .f32⟩
  | .hbm, ⟨102, _⟩ => ⟨S50000x512, .f32⟩
  | .hbm, ⟨103, _⟩ => ⟨S50000x512, .bf16⟩
  | .hbm, ⟨104, _⟩ => ⟨S512x256, .bf16⟩
  | .hbm, ⟨105, _⟩ => ⟨S50000x256, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S256, .f32⟩
  | .local _ .vmem, ⟨4, _⟩ => ⟨S2000x256, .f32⟩
  | .local _ .vmem, ⟨5, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v75) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v77) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S850000 : Shape := ⟨1, ![850000]⟩
abbrev S850000x1 : Shape := ⟨2, ![850000, 1]⟩
abbrev S850000x128 : Shape := ⟨2, ![850000, 128]⟩
abbrev S50000x512 : Shape := ⟨2, ![50000, 512]⟩
abbrev S50000x256 : Shape := ⟨2, ![50000, 256]⟩
abbrev S1x256 : Shape := ⟨2, ![1, 256]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S512x256, .f32⟩
  | .hbm, ⟨4, _⟩ => ⟨S256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S50000, .i32⟩
  | .hbm, ⟨49, _⟩ => ⟨S850000, .i32⟩
  | .hbm, ⟨50, _⟩ => ⟨S850000, .i32⟩
  | .hbm, ⟨51, _⟩ => ⟨S_, .f32⟩
  | .hbm, ⟨52, _⟩ => ⟨S50000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x128, .f32⟩
  | .hbm, ⟨95, _⟩ => ⟨S850000x1, .f32⟩
  | .hbm, ⟨96, _⟩ => ⟨S850000x128, .f32⟩
  | .hbm, ⟨97, _⟩ => ⟨S850000x128, .f32⟩
  | .hbm, ⟨98, _⟩ => ⟨S_, .f32⟩
  | .hbm, ⟨99, _⟩ => ⟨S50000x128, .f32⟩
  | .hbm, ⟨100, _⟩ => ⟨S850000x1, .i32⟩
  | .hbm, ⟨101, _⟩ => ⟨S50000x128, .f32⟩
  | .hbm, ⟨102, _⟩ => ⟨S50000x512, .f32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | .hbm, ⟨107, _⟩ => ⟨S_, .f32⟩
  | .hbm, ⟨108, _⟩ => ⟨S50000x256, .f32⟩
  | .hbm, ⟨109, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call2_cst : Ref sig .tc := ⟨.hbm, 107, rfl⟩
abbrev main_call2_v0 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x512_S512x256_S50000x256_1_0_0_1_n_n_wf : DotDims.WF S50000x512 S512x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.Bits.Entry.lean ====
/-
  The arrays as the dense projection finds them. Before its one kernel launch the program runs its
  host lines: the degree of each node, the symmetric normalisation of the edge weights, three rounds
  of gather · scale · scatter-add along the edges (with the self loops appended), the four
  [50000,128] arrays joined along the feature axis, and the two changes of float format. This
  module names the contents of every buffer after those lines, shows that @main is those lines
  followed by the launch, and that none of them writes an argument array.
-/
import proofs.«118303_j65876208386531_1_alg».proof.Proof.Gen.Kernel.Launch
import proofs.«118303_j65876208386531_1_alg».proof.Proof.Gen.Kernel.Skeleton
import proofs.«118303_j65876208386531_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The host lines that precede the launch, stretch by stretch (a called function's lines are a stretch of
    their own), in program order. -/
abbrev hostLines : List (List (HloOp τ sig (Elt F))) := [hostOps0, hostOps0_1, hostOps0_2, hostOps0_3, hostOps0_4]

/-- Core `c`'s buffers when the launch is reached: the launch contents `m` rewritten by every host line in order. -/
def atEntry (c : Dev nD) (b : Ref sig .tc) : Buf (Elt F) ((c : Thread nD τ).loc b) :=
  StableHlo.after (List.flatten (hostLines (F := F))) (fun b => m (c, b)) b

/-! Every host line writes into a buffer that exists from the start: none allocates. -/

theorem lines0_fresh : (hostOps0 : List (HloOp τ sig (Elt F))).Forall fun op => op.fresh = ∅ := by
  simp only [List.Forall]; repeat' constructor
theorem lines1_fresh : (hostOps0_1 : List (HloOp τ sig (Elt F))).Forall fun op => op.fresh = ∅ := by
  simp only [List.Forall]; repeat' constructor
theorem lines2_fresh : (hostOps0_2 : List (HloOp τ sig (Elt F))).Forall fun op => op.fresh = ∅ := by
  simp only [List.Forall]; repeat' constructor
theorem lines3_fresh : (hostOps0_3 : List (HloOp τ sig (Elt F))).Forall fun op => op.fresh = ∅ := by
  simp only [List.Forall]; repeat' constructor
set_option maxHeartbeats 4000000 in
theorem lines4_fresh : (hostOps0_4 : List (HloOp τ sig (Elt F))).Forall fun op => op.fresh = ∅ := by
  simp only [List.Forall]; repeat' constructor

/-- @main is its host lines and then the launch; at the launch the buffers hold `atEntry`. -/
theorem main_reaches_launch (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main hostLines
    (by simp only [List.Forall]; exact ⟨hostOps0_sub, hostOps0_1_sub, hostOps0_2_sub, hostOps0_3_sub, hostOps0_4_sub⟩)
    (by simp only [List.Forall]; exact ⟨lines0_fresh, lines1_fresh, lines2_fresh, lines3_fresh, lines4_fresh⟩) main_chain

/-- Closes "no host line writes this argument": every line writes exactly one buffer, a value buffer of @main,
    and the argument buffers are other references. -/
local macro "no_line_writes" : tactic => `(tactic| (
  refine StableHlo.after_of_forall_not_mem _ _ (List.forall_iff_forall_mem.mp ?_)
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

set_option maxHeartbeats 4000000 in
/-- The node features reach the launch as they were at the start. -/
theorem entry_arg0 (c : Dev nD) : atEntry m c main_arg0 = m ((c : Thread nD τ).loc main_arg0) := by
  show StableHlo.after _ _ (Proc.devRef .tc main_arg0) = _
  no_line_writes
set_option maxHeartbeats 4000000 in
/-- So do the edge endpoints, -/
theorem entry_arg1 (c : Dev nD) : atEntry m c main_arg1 = m ((c : Thread nD τ).loc main_arg1) := by
  show StableHlo.after _ _ (Proc.devRef .tc main_arg1) = _
  no_line_writes
set_option maxHeartbeats 4000000 in
/-- the edge weights, -/
theorem entry_arg2 (c : Dev nD) : atEntry m c main_arg2 = m ((c : Thread nD τ).loc main_arg2) := by
  show StableHlo.after _ _ (Proc.devRef .tc main_arg2) = _
  no_line_writes
set_option maxHeartbeats 4000000 in
/-- the projection matrix -/
theorem entry_arg3 (c : Dev nD) : atEntry m c main_arg3 = m ((c : Thread nD τ).loc main_arg3) := by
  show StableHlo.after _ _ (Proc.devRef .tc main_arg3) = _
  no_line_writes
set_option maxHeartbeats 4000000 in
/-- and the bias. -/
theorem entry_arg4 (c : Dev nD) : atEntry m c main_arg4 = m ((c : Thread nD τ).loc main_arg4) := by
  show StableHlo.after _ _ (Proc.devRef .tc main_arg4) = _
  no_line_writes

end Cert.Kernel.Entry

end
-- ==== Proof.Bits.Body.lean ====
/-
  One grid point of the dense projection. The body reads its block of 2000 rows of the propagated
  features, the whole projection matrix and the whole bias, forms  max(rows · matrix + bias, 0)
  and stores it over the whole 2000 × 256 output block. This module states what the output block
  holds afterwards as a function of the three blocks read, and proves the body's triple: run on
  whole staging buffers it terminates without fault, leaves the inputs as they were and the output
  block at that function of them.
-/
import proofs.«118303_j65876208386531_1_alg».proof.Proof.Bits.Entry

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes: each is its whole buffer -/

abbrev rowsAll : Rect S2000x512 := Rect.unit (s := S2000x512) ![0, 0] S2000x512.size inb_S2000x512_S2000x512_0_0
abbrev matAll : Rect S512x256 := Rect.unit (s := S512x256) ![0, 0] S512x256.size inb_S512x256_S512x256_0_0
abbrev biasAll : Rect S256 := Rect.unit (s := S256) ![0] S256.size inb_S256_S256_0
abbrev outAll : Rect S2000x256 := Rect.unit (s := S2000x256) ![0, 0] S2000x256.size inb_S2000x256_S2000x256_0_0

/-- The output block after the body, from the three blocks it read: its one store, which covers the block. -/
def outBlock (rows : Vec F S2000x512 .bf16) (mat : Vec F S512x256 .bf16) (bias : Vec F S256 .f32) : Vec F S2000x256 .f32 :=
  View.canon [⟨outAll, k0_pay1 (View.ld rows rowsAll) (View.ld mat matAll) (View.ld bias biasAll)⟩]

/-- The one store's rectangle is the whole block, so every index of the block lies in it. -/
theorem store_covers (p0 : Vec F S2000x256 .f32) (y : S2000x256.Idx) :
    ∃ pc ∈ ([⟨outAll, p0⟩] : List (View.Piece (Elt F) S2000x256 .f32)), y ∈ pc.1.set :=
  View.cover_of_tiled [⟨outAll, p0⟩] S2000x256.size (by rfl) y

set_option maxHeartbeats 1000000 in
/-- The body's triple. Given the three input buffers whole at `rows`, `mat`, `bias` and the output buffer whole at
    anything, the body runs to its continuation with the inputs unchanged and the output at `outBlock rows mat bias`. -/
theorem body_triple (c : Dev nD) (E : Set ℕ) (i : grid0.Coords)
    (arg1 : Memref sig .tc .vmem S2000x512 .bf16) (harg1 : arg1.IsWhole) (arg2 : Memref sig .tc .vmem S512x256 .bf16) (harg2 : arg2.IsWhole)
    (arg3 : Memref sig .tc .vmem S256 .f32) (harg3 : arg3.IsWhole) (arg4 : Memref sig .tc .vmem S2000x256 .f32) (harg4 : arg4.IsWhole)
    (rows : Vec F S2000x512 .bf16) (mat : Vec F S512x256 .bf16) (bias : Vec F S256 .f32) (K : PUnit → sProp 𝕄) :
    iprop(owns (c : Thread nD τ) arg1 fullShare rows ∗ owns (c : Thread nD τ) arg2 fullShare mat ∗ owns (c : Thread nD τ) arg3 fullShare bias
        ∗ (∃ d, owns (c : Thread nD τ) arg4 fullShare d)
        ∗ (iprop(owns (c : Thread nD τ) arg1 fullShare rows ∗ owns (c : Thread nD τ) arg2 fullShare mat ∗ owns (c : Thread nD τ) arg3 fullShare bias
            ∗ owns (c : Thread nD τ) arg4 fullShare (outBlock rows mat bias)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.Kernel.Body

end
-- ==== Proof.Bits.Launch.lean ====
/-
  The launch of the dense projection over its 25 grid points, and the frame. The proof data says
  what each staging buffer holds after the body at a point: an input window's buffer holds its
  block of the array found at the launch (rows 2000·t … 2000·t+1999 of the propagated features;
  the whole matrix; the whole bias), and the output window's buffer holds the body's function of
  those three blocks. The body's triple discharges the per-point obligation; the library's frame
  run then gives: @main terminates without fault, every array a window stages ends at what the
  proof data computes, every other buffer ends as the launch found it. Read at the five argument
  arrays, none of which a host line or the kernel writes, that is the frame.
-/
import proofs.«118303_j65876208386531_1_alg».proof.Proof.Bits.Body

set_option maxRecDepth 16384

noncomputable section

namespace Cert.Kernel.Projection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The proof data on core `c`: the arrays as found at the launch; after the body at `t` each input buffer at its block
    and the output buffer at the body's function of the three blocks; the invariant the untouched scoped rest and
    generator register; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => outBlock (blockAt m c 0 t) (blockAt m c 1 t) (blockAt m c 2 t)
  Φ _ := Pipeline.ΦA spec0 c
  q _ := fullShare
  owed _ := 0

theorem arrays_eq (c : Dev nD) (w : Fin cfg0.W) : (pdata m 0 c).A w = atEntry m c (Pipeline.arrRef spec0 w) := by
  dsimp only [pdata]

theorem after_rows (c : Dev nD) (t : Fin cfg0.N) : (pdata m 0 c).after 0 t = blockAt m c 0 t := by dsimp only [pdata]
theorem after_mat (c : Dev nD) (t : Fin cfg0.N) : (pdata m 0 c).after 1 t = blockAt m c 1 t := by dsimp only [pdata]
theorem after_bias (c : Dev nD) (t : Fin cfg0.N) : (pdata m 0 c).after 2 t = blockAt m c 2 t := by dsimp only [pdata]
theorem after_out (c : Dev nD) (t : Fin cfg0.N) :
    (pdata m 0 c).after 3 t = outBlock (blockAt m c 0 t) (blockAt m c 1 t) (blockAt m c 2 t) := by dsimp only [pdata]

/-! An input window's current buffer holds its block at every point, whether the pipeline fetched it there or not:
    where it did not, the block index has not moved since the point that did (the matrix and the bias are fetched
    once, at the first point, and their block is the whole array at every point). -/

theorem before_rows (c : Dev nD) (t : Fin cfg0.N) (d) : (pdata m 0 c).before 0 t d = blockAt m c 0 t :=
  ((pdata m 0 c).before_in_eq_fetched 0 rfl (fun _ => rfl) (fun _ _ _ => rfl)
      (fun t => by rw [after_rows]; unfold Dat.blockOf blockAt; rw [arrays_eq]; try rfl) t d).trans
    (by unfold Dat.fetched Dat.blockOf blockAt; rw [arrays_eq]; try rfl)
theorem before_mat (c : Dev nD) (t : Fin cfg0.N) (d) : (pdata m 0 c).before 1 t d = blockAt m c 1 t :=
  ((pdata m 0 c).before_in_eq_fetched 1 rfl (fun _ => rfl) (fun _ _ _ => rfl)
      (fun t => by rw [after_mat]; unfold Dat.blockOf blockAt; rw [arrays_eq]; try rfl) t d).trans
    (by unfold Dat.fetched Dat.blockOf blockAt; rw [arrays_eq]; try rfl)
theorem before_bias (c : Dev nD) (t : Fin cfg0.N) (d) : (pdata m 0 c).before 2 t d = blockAt m c 2 t :=
  ((pdata m 0 c).before_in_eq_fetched 2 rfl (fun _ => rfl) (fun _ _ _ => rfl)
      (fun t => by rw [after_bias]; unfold Dat.blockOf blockAt; rw [arrays_eq]; try rfl) t d).trans
    (by unfold Dat.fetched Dat.blockOf blockAt; rw [arrays_eq]; try rfl)

/-- What the body is called with at point `t`, the four windows one by one, -/
def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d)))

/-- and what it returns. -/
def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t))

/-- The body at any point: the input buffers hold their blocks, so the body's triple applies; the invariant and what
    the core owes pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_mat, before_bias]
  rw [show (pdata m 0 c).Φ t.succ = (pdata m 0 c).Φ t.castSucc from rfl,
    show (pdata m 0 c).owesAt () t.succ = (pdata m 0 c).owesAt () t.castSucc from rfl,
    after_rows, after_mat, after_bias, after_out]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (pdata (F := F) m 0 c) (defs₀ (F := F)) Variants.none () Set.univ := fun t => by
  rw [bigSep_W0, bigSep_W0]
  exact point_sound m c t

set_option backward.isDefEq.respectTransparency.types false in
/-- From any memory with zero counters every weakly fair execution of @main terminates, without fault; the four staged
    arrays end at what the proof data computes and every other unscoped buffer as the launch found it. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (obligation m c).loose) (hshare := fun c => (pdata m 0 c).share_full fun _ => rfl)
    (howed := fun _ _ => rfl) (V := atEntry m) (hmain := main_reaches_launch m Variants.none) (hA := arrays_eq m) (hΦ := fun _ _ => rfl)

/-- The frame: the five argument arrays end as they began. The node features, the edge endpoints, the edge weights
    and the projection matrix are staged by no window, so they end as the launch found them, which is as they began;
    the bias is an input window's array, which the library's run leaves at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 2).trans (((pdata m 0 c).arrAt_in 2 rfl _).trans ((arrays_eq m c 2).trans (entry_arg4 m c)))⟩) (run_main m ρ)

end Cert.Kernel.Projection

end
-- ==== Proof.Ideal.Entry.lean ====
/-
  The arrays as the dense projection finds them. Before its one kernel launch the program runs its
  host lines: the degree of each node, the symmetric normalisation of the edge weights, three rounds
  of gather · scale · scatter-add along the edges (with the self loops appended), the four
  [50000,128] arrays joined along the feature axis, and the two changes of float format. This
  module names the contents of every buffer after those lines, shows that @main is those lines
  followed by the launch, and that none of them writes an argument array.
-/
import proofs.«118303_j65876208386531_1_alg».proof.Proof.Gen.KernelIdeal.Launch
import proofs.«118303_j65876208386531_1_alg».proof.Proof.Gen.KernelIdeal.Skeleton
import proofs.«118303_j65876208386531_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The host lines that precede the launch, stretch by stretch (a called function's lines are a stretch of
    their own), in program order. -/
abbrev hostLines : List (List (HloOp τ sig (Elt F))) := [hostOps0, hostOps0_1, hostOps0_2, hostOps0_3, hostOps0_4]

/-- Core `c`'s buffers when the launch is reached: the launch contents `m` rewritten by every host line in order. -/
def atEntry (c : Dev nD) (b : Ref sig .tc) : Buf (Elt F) ((c : Thread nD τ).loc b) :=
  StableHlo.after (List.flatten (hostLines (F := F))) (fun b => m (c, b)) b

/-! Every host line writes into a buffer that exists from the start: none allocates. -/

theorem lines0_fresh : (hostOps0 : List (HloOp τ sig (Elt F))).Forall fun op => op.fresh = ∅ := by
  simp only [List.Forall]; repeat' constructor
theorem lines1_fresh : (hostOps0_1 : List (HloOp τ sig (Elt F))).Forall fun op => op.fresh = ∅ := by
  simp only [List.Forall]; repeat' constructor
theorem lines2_fresh : (hostOps0_2 : List (HloOp τ sig (Elt F))).Forall fun op => op.fresh = ∅ := by
  simp only [List.Forall]; repeat' constructor
theorem lines3_fresh : (hostOps0_3 : List (HloOp τ sig (Elt F))).Forall fun op => op.fresh = ∅ := by
  simp only [List.Forall]; repeat' constructor
set_option maxHeartbeats 4000000 in
theorem lines4_fresh : (hostOps0_4 : List (HloOp τ sig (Elt F))).Forall fun op => op.fresh = ∅ := by
  simp only [List.Forall]; repeat' constructor

/-- @main is its host lines and then the launch; at the launch the buffers hold `atEntry`. -/
theorem main_reaches_launch (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main hostLines
    (by simp only [List.Forall]; exact ⟨hostOps0_sub, hostOps0_1_sub, hostOps0_2_sub, hostOps0_3_sub, hostOps0_4_sub⟩)
    (by simp only [List.Forall]; exact ⟨lines0_fresh, lines1_fresh, lines2_fresh, lines3_fresh, lines4_fresh⟩) main_chain

/-- Closes "no host line writes this argument": every line writes exactly one buffer, a value buffer of @main,
    and the argument buffers are other references. -/
local macro "no_line_writes" : tactic => `(tactic| (
  refine StableHlo.after_of_forall_not_mem _ _ (List.forall_iff_forall_mem.mp ?_)
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

set_option maxHeartbeats 4000000 in
/-- The node features reach the launch as they were at the start. -/
theorem entry_arg0 (c : Dev nD) : atEntry m c main_arg0 = m ((c : Thread nD τ).loc main_arg0) := by
  show StableHlo.after _ _ (Proc.devRef .tc main_arg0) = _
  no_line_writes
set_option maxHeartbeats 4000000 in
/-- So do the edge endpoints, -/
theorem entry_arg1 (c : Dev nD) : atEntry m c main_arg1 = m ((c : Thread nD τ).loc main_arg1) := by
  show StableHlo.after _ _ (Proc.devRef .tc main_arg1) = _
  no_line_writes
set_option maxHeartbeats 4000000 in
/-- the edge weights, -/
theorem entry_arg2 (c : Dev nD) : atEntry m c main_arg2 = m ((c : Thread nD τ).loc main_arg2) := by
  show StableHlo.after _ _ (Proc.devRef .tc main_arg2) = _
  no_line_writes
set_option maxHeartbeats 4000000 in
/-- the projection matrix -/
theorem entry_arg3 (c : Dev nD) : atEntry m c main_arg3 = m ((c : Thread nD τ).loc main_arg3) := by
  show StableHlo.after _ _ (Proc.devRef .tc main_arg3) = _
  no_line_writes
set_option maxHeartbeats 4000000 in
/-- and the bias. -/
theorem entry_arg4 (c : Dev nD) : atEntry m c main_arg4 = m ((c : Thread nD τ).loc main_arg4) := by
  show StableHlo.after _ _ (Proc.devRef .tc main_arg4) = _
  no_line_writes

end Cert.KernelIdeal.Entry

end
-- ==== Proof.Ideal.Body.lean ====
/-
  One grid point of the dense projection. The body reads its block of 2000 rows of the propagated
  features, the whole projection matrix and the whole bias, forms  max(rows · matrix + bias, 0)
  and stores it over the whole 2000 × 256 output block. This module states what the output block
  holds afterwards as a function of the three blocks read, and proves the body's triple: run on
  whole staging buffers it terminates without fault, leaves the inputs as they were and the output
  block at that function of them.
-/
import proofs.«118303_j65876208386531_1_alg».proof.Proof.Ideal.Entry

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes: each is its whole buffer -/

abbrev rowsAll : Rect S2000x512 := Rect.unit (s := S2000x512) ![0, 0] S2000x512.size inb_S2000x512_S2000x512_0_0
abbrev matAll : Rect S512x256 := Rect.unit (s := S512x256) ![0, 0] S512x256.size inb_S512x256_S512x256_0_0
abbrev biasAll : Rect S256 := Rect.unit (s := S256) ![0] S256.size inb_S256_S256_0
abbrev outAll : Rect S2000x256 := Rect.unit (s := S2000x256) ![0, 0] S2000x256.size inb_S2000x256_S2000x256_0_0

/-- The output block after the body, from the three blocks it read: its one store, which covers the block. -/
def outBlock (rows : Vec F S2000x512 .bf16) (mat : Vec F S512x256 .bf16) (bias : Vec F S256 .f32) : Vec F S2000x256 .f32 :=
  View.canon [⟨outAll, k0_pay1 (View.ld rows rowsAll) (View.ld mat matAll) (View.ld bias biasAll)⟩]

/-- The one store's rectangle is the whole block, so every index of the block lies in it. -/
theorem store_covers (p0 : Vec F S2000x256 .f32) (y : S2000x256.Idx) :
    ∃ pc ∈ ([⟨outAll, p0⟩] : List (View.Piece (Elt F) S2000x256 .f32)), y ∈ pc.1.set :=
  View.cover_of_tiled [⟨outAll, p0⟩] S2000x256.size (by rfl) y

set_option maxHeartbeats 1000000 in
/-- The body's triple. Given the three input buffers whole at `rows`, `mat`, `bias` and the output buffer whole at
    anything, the body runs to its continuation with the inputs unchanged and the output at `outBlock rows mat bias`. -/
theorem body_triple (c : Dev nD) (E : Set ℕ) (i : grid0.Coords)
    (arg1 : Memref sig .tc .vmem S2000x512 .bf16) (harg1 : arg1.IsWhole) (arg2 : Memref sig .tc .vmem S512x256 .bf16) (harg2 : arg2.IsWhole)
    (arg3 : Memref sig .tc .vmem S256 .f32) (harg3 : arg3.IsWhole) (arg4 : Memref sig .tc .vmem S2000x256 .f32) (harg4 : arg4.IsWhole)
    (rows : Vec F S2000x512 .bf16) (mat : Vec F S512x256 .bf16) (bias : Vec F S256 .f32) (K : PUnit → sProp 𝕄) :
    iprop(owns (c : Thread nD τ) arg1 fullShare rows ∗ owns (c : Thread nD τ) arg2 fullShare mat ∗ owns (c : Thread nD τ) arg3 fullShare bias
        ∗ (∃ d, owns (c : Thread nD τ) arg4 fullShare d)
        ∗ (iprop(owns (c : Thread nD τ) arg1 fullShare rows ∗ owns (c : Thread nD τ) arg2 fullShare mat ∗ owns (c : Thread nD τ) arg3 fullShare bias
            ∗ owns (c : Thread nD τ) arg4 fullShare (outBlock rows mat bias)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.KernelIdeal.Body

end
-- ==== Proof.Ideal.Launch.lean ====
/-
  The launch of the dense projection over its 25 grid points, and the frame. The proof data says
  what each staging buffer holds after the body at a point: an input window's buffer holds its
  block of the array found at the launch (rows 2000·t … 2000·t+1999 of the propagated features;
  the whole matrix; the whole bias), and the output window's buffer holds the body's function of
  those three blocks. The body's triple discharges the per-point obligation; the library's frame
  run then gives: @main terminates without fault, every array a window stages ends at what the
  proof data computes, every other buffer ends as the launch found it. Read at the five argument
  arrays, none of which a host line or the kernel writes, that is the frame.
-/
import proofs.«118303_j65876208386531_1_alg».proof.Proof.Ideal.Body

set_option maxRecDepth 16384

noncomputable section

namespace Cert.KernelIdeal.Projection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The proof data on core `c`: the arrays as found at the launch; after the body at `t` each input buffer at its block
    and the output buffer at the body's function of the three blocks; the invariant the untouched scoped rest and
    generator register; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => outBlock (blockAt m c 0 t) (blockAt m c 1 t) (blockAt m c 2 t)
  Φ _ := Pipeline.ΦA spec0 c
  q _ := fullShare
  owed _ := 0

theorem arrays_eq (c : Dev nD) (w : Fin cfg0.W) : (pdata m 0 c).A w = atEntry m c (Pipeline.arrRef spec0 w) := by
  dsimp only [pdata]

theorem after_rows (c : Dev nD) (t : Fin cfg0.N) : (pdata m 0 c).after 0 t = blockAt m c 0 t := by dsimp only [pdata]
theorem after_mat (c : Dev nD) (t : Fin cfg0.N) : (pdata m 0 c).after 1 t = blockAt m c 1 t := by dsimp only [pdata]
theorem after_bias (c : Dev nD) (t : Fin cfg0.N) : (pdata m 0 c).after 2 t = blockAt m c 2 t := by dsimp only [pdata]
theorem after_out (c : Dev nD) (t : Fin cfg0.N) :
    (pdata m 0 c).after 3 t = outBlock (blockAt m c 0 t) (blockAt m c 1 t) (blockAt m c 2 t) := by dsimp only [pdata]

/-! An input window's current buffer holds its block at every point, whether the pipeline fetched it there or not:
    where it did not, the block index has not moved since the point that did (the matrix and the bias are fetched
    once, at the first point, and their block is the whole array at every point). -/

theorem before_rows (c : Dev nD) (t : Fin cfg0.N) (d) : (pdata m 0 c).before 0 t d = blockAt m c 0 t :=
  ((pdata m 0 c).before_in_eq_fetched 0 rfl (fun _ => rfl) (fun _ _ _ => rfl)
      (fun t => by rw [after_rows]; unfold Dat.blockOf blockAt; rw [arrays_eq]; try rfl) t d).trans
    (by unfold Dat.fetched Dat.blockOf blockAt; rw [arrays_eq]; try rfl)
theorem before_mat (c : Dev nD) (t : Fin cfg0.N) (d) : (pdata m 0 c).before 1 t d = blockAt m c 1 t :=
  ((pdata m 0 c).before_in_eq_fetched 1 rfl (fun _ => rfl) (fun _ _ _ => rfl)
      (fun t => by rw [after_mat]; unfold Dat.blockOf blockAt; rw [arrays_eq]; try rfl) t d).trans
    (by unfold Dat.fetched Dat.blockOf blockAt; rw [arrays_eq]; try rfl)
theorem before_bias (c : Dev nD) (t : Fin cfg0.N) (d) : (pdata m 0 c).before 2 t d = blockAt m c 2 t :=
  ((pdata m 0 c).before_in_eq_fetched 2 rfl (fun _ => rfl) (fun _ _ _ => rfl)
      (fun t => by rw [after_bias]; unfold Dat.blockOf blockAt; rw [arrays_eq]; try rfl) t d).trans
    (by unfold Dat.fetched Dat.blockOf blockAt; rw [arrays_eq]; try rfl)

/-- What the body is called with at point `t`, the four windows one by one, -/
def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d)))

/-- and what it returns. -/
def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t))

/-- The body at any point: the input buffers hold their blocks, so the body's triple applies; the invariant and what
    the core owes pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_mat, before_bias]
  rw [show (pdata m 0 c).Φ t.succ = (pdata m 0 c).Φ t.castSucc from rfl,
    show (pdata m 0 c).owesAt () t.succ = (pdata m 0 c).owesAt () t.castSucc from rfl,
    after_rows, after_mat, after_bias, after_out]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (pdata (F := F) m 0 c) (defs₀ (F := F)) Variants.none () Set.univ := fun t => by
  rw [bigSep_W0, bigSep_W0]
  exact point_sound m c t

set_option backward.isDefEq.respectTransparency.types false in
/-- From any memory with zero counters every weakly fair execution of @main terminates, without fault; the four staged
    arrays end at what the proof data computes and every other unscoped buffer as the launch found it. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (obligation m c).loose) (hshare := fun c => (pdata m 0 c).share_full fun _ => rfl)
    (howed := fun _ _ => rfl) (V := atEntry m) (hmain := main_reaches_launch m Variants.none) (hA := arrays_eq m) (hΦ := fun _ _ => rfl)

/-- The frame: the five argument arrays end as they began. The node features, the edge endpoints, the edge weights
    and the projection matrix are staged by no window, so they end as the launch found them, which is as they began;
    the bias is an input window's array, which the library's run leaves at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 2).trans (((pdata m 0 c).arrAt_in 2 rfl _).trans ((arrays_eq m c 2).trans (entry_arg4 m c)))⟩) (run_main m ρ)

end Cert.KernelIdeal.Projection

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.Ideal.BlockValue.lean ====
/-
  The body's arithmetic at exact arithmetic, read at an entry. From a block of 2000 rows of
  features, the 512 × 256 matrix and the bias, the body's stored value at row p, column q is
      max( Σ_k rows(p,k) · mat(k,q) + bias(q), 0 ):
  the matrix unit's product into a zero accumulator is that sum, the bias cast to one row and
  broadcast down the rows is bias(q), and the rectifier is the maximum with the zero word.
-/
import proofs.«118303_j65876208386531_1_alg».proof.Proof.Gen.KernelIdeal.Skeleton
import proofs.«118303_j65876208386531_1_alg».proof.Proof.LibDense

noncomputable section

namespace Cert.KernelIdeal.BlockValue

open Idealize.ShloMosaic Idealize.ShloMosaic.ValueIdx Idealize.SL.Sem
open Cert.KernelIdeal Cert.KernelIdeal.Gen Cert.LibDense

/-- The product's index maps: the left operand takes its row from the output index and its column from the
    contraction index; the right operand its row from the contraction index and its column from the output index. -/
theorem lhs_row (i : S2000x256.Idx) (c : dot_S2000x512_S512x256_S2000x256_1_0_0_1_n_n.contr.Idx) :
    (dot_S2000x512_S512x256_S2000x256_1_0_0_1_n_n.lhsIdx i c 0).val = (i 0).val := by
  unfold DotDims.lhsIdx
  rw [dif_neg (show ¬(0 : Fin S2000x512.rank) ∈ dot_S2000x512_S512x256_S2000x256_1_0_0_1_n_n.lhsBatch by decide),
    dif_pos (show (0 : Fin S2000x512.rank) ∈ dot_S2000x512_S512x256_S2000x256_1_0_0_1_n_n.lhsNonContracting by decide)]
  rfl
theorem lhs_col (i : S2000x256.Idx) (c : dot_S2000x512_S512x256_S2000x256_1_0_0_1_n_n.contr.Idx) :
    (dot_S2000x512_S512x256_S2000x256_1_0_0_1_n_n.lhsIdx i c 1).val = (c ⟨0, by decide⟩).val :=
  dot_S2000x512_S512x256_S2000x256_1_0_0_1_n_n.lhsIdx_val_of_single rfl i c
theorem rhs_row (i : S2000x256.Idx) (c : dot_S2000x512_S512x256_S2000x256_1_0_0_1_n_n.contr.Idx) :
    (dot_S2000x512_S512x256_S2000x256_1_0_0_1_n_n.rhsIdx i c 0).val = (c ⟨0, by decide⟩).val :=
  dot_S2000x512_S512x256_S2000x256_1_0_0_1_n_n.rhsIdx_val_of_single rfl i c
theorem rhs_col (i : S2000x256.Idx) (c : dot_S2000x512_S512x256_S2000x256_1_0_0_1_n_n.contr.Idx) :
    (dot_S2000x512_S512x256_S2000x256_1_0_0_1_n_n.rhsIdx i c 1).val = (i 1).val := by
  unfold DotDims.rhsIdx
  rw [dif_neg (show ¬(1 : Fin S512x256.rank) ∈ dot_S2000x512_S512x256_S2000x256_1_0_0_1_n_n.rhsBatch by decide),
    dif_pos (show (1 : Fin S512x256.rank) ∈ dot_S2000x512_S512x256_S2000x256_1_0_0_1_n_n.rhsNonContracting by decide)]
  rfl

/-- The stored value at (p, q): the rectified affine entry. -/
theorem payload_entry (rows : FVec Ideal S2000x512 .bf16) (mat : FVec Ideal S512x256 .bf16) (bias : FVec Ideal S256 .f32)
    (p : Fin 2000) (q : Fin 256) :
    k0_pay1 (F := Ideal) rows mat bias (ix2 p q)
      = max (∑ k : Fin 512, rows (ix2 p k) * mat (ix2 k q) + bias (ix1 q)) zeroWord := by
  have hprod : matmul dot_S2000x512_S512x256_S2000x256_1_0_0_1_n_n none (shapeCast S2000x512 rows shapeCasts_S2000x512_S2000x512)
      (shapeCast S512x256 mat shapeCasts_S512x256_S512x256) (constant (F := Ideal) S2000x256 .f32 0x00000000#32) (ix2 p q)
      = ∑ k : Fin 512, rows (ix2 p k) * mat (ix2 k q) := by
    rw [shapeCast_self, shapeCast_self]
    exact matmul_zero_rc (M := 2000) (K := 512) (N := 256) dot_S2000x512_S512x256_S2000x256_1_0_0_1_n_n rfl rfl
      lhs_row lhs_col rhs_row rhs_col none rows mat p q
  have hbias : broadcastTo S2000x256 (shapeCast S1x256 bias shapeCasts_S256_S1x256) broadcasts_S1x256_S2000x256 (ix2 p q)
      = bias (ix1 q) :=
    rowBroadcast_rc (M := 2000) (N := 256) bias shapeCasts_S256_S1x256 broadcasts_S1x256_S2000x256 p q
  unfold k0_pay1
  show max (_ + _) _ = _
  refine congrArg₂ max (congrArg₂ (· + ·) hprod hbias) rfl

end Cert.KernelIdeal.BlockValue

end
-- ==== Proof.Ideal.ArrayValue.lean ====
/-
  From blocks to the whole output array, at exact arithmetic. Grid point t reads rows
  2000·t … 2000·t+1999 of the feature array found at the launch, the whole matrix and the whole
  bias, and writes back rows 2000·t … 2000·t+1999 of the output. What it writes back is that block
  of ONE whole-array function: the dense layer with the rectifier,
      out(r, q) = max( Σ_k H(r,k) · W(k,q) + b(q), 0 ).
  The 25 blocks of 2000 rows tile the 50000 rows, so the output array ends at that function.
-/
import proofs.«118303_j65876208386531_1_alg».proof.Proof.Ideal.Launch
import proofs.«118303_j65876208386531_1_alg».proof.Proof.Ideal.BlockValue
import Idealize.ShloMosaic.Lib.Pipeline.Value

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Rounds
open Idealize.ShloMosaic.Pipeline (Dat Cfg Window BodyObligation cellOf)
open Cert.KernelIdeal Cert.KernelIdeal.Gen Cert.KernelIdeal.Entry Cert.KernelIdeal.Body Cert.KernelIdeal.Projection
open Cert.KernelIdeal.BlockValue Cert.LibDense

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- One block's entry against the whole-array function. If `rows` is rows off … off+1999 of `H`, `mat` is `W` and
    `bias` is `b`, the body's stored value at (p, q) is the layer's entry at (off + p, q). -/
theorem block_entry (rows : FVec Ideal S2000x512 .bf16) (mat : FVec Ideal S512x256 .bf16) (bias : FVec Ideal S256 .f32)
    (H : (⟨2, ![50000, 512]⟩ : Shape).Idx → EReal) (W : (⟨2, ![512, 256]⟩ : Shape).Idx → EReal) (b : (⟨1, ![256]⟩ : Shape).Idx → EReal)
    (r : Fin 50000) (p : Fin 2000) (q : Fin 256)
    (hrows : ∀ k : Fin 512, rows (ix2 p k) = H (ix2 r k)) (hmat : ∀ k : Fin 512, mat (ix2 k q) = W (ix2 k q))
    (hbias : bias (ix1 q) = b (ix1 q)) :
    k0_pay1 (F := Ideal) rows mat bias (ix2 p q) = layer (M := 50000) (K := 512) (N := 256) H W b (ix2 r q) := by
  rw [payload_entry, layer_apply, hbias]
  refine congrArg₂ max (congrArg₂ (· + ·) (Finset.sum_congr rfl fun k _ => ?_) rfl) rfl
  rw [hrows k, hmat k]

/-- The printed index maps over the grid: the features' and the output's blocks are at block row t, block column 0;
    the matrix's and the bias's block is the one block they have. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The whole-array function of the arrays found at the launch. -/
abbrev projected (c : Dev nD) : S50000x256.Idx → EReal :=
  layer (M := 50000) (K := 512) (N := 256) (atEntry m c main_v75) (atEntry m c main_v76) (atEntry m c main_arg4)

set_option maxHeartbeats 4000000 in
/-- What point t writes back is block t of the projected array. -/
theorem flushed_eq (c : Dev nD) (t : Fin cfg0.N) :
    (pdata m 0 c).flushed 3 t = ((cfg0.win 3).blk t).view.read (Elt Ideal) (projected m c) := by
  show (cfg0.win 3).cut (grid0.coords t) ((pdata m 0 c).after 3 t) = _
  rw [after_out]
  unfold outBlock
  rw [View.canon_unit_zero origin2]
  simp only [View.ld_unit_zero (S := S2000x512) origin2, View.ld_unit_zero (S := S512x256) origin2, View.ld_unit_zero (S := S256) origin1]
  obtain ⟨e0, e1, e2, e3, e4, e5, e6⟩ := index_facts t
  have ht : t.val < 25 := lt_of_lt_of_eq t.isLt N_0
  funext j
  obtain ⟨p, q, rfl⟩ : ∃ (p : Fin 2000) (q : Fin 256), j = ix2 p q := ⟨j 0, j 1, eq_ix2 j⟩
  have hp : p.val < 2000 := p.isLt
  refine (block_entry (blockAt m c 0 t) (blockAt m c 1 t) (blockAt m c 2 t) (atEntry m c main_v75) (atEntry m c main_v76)
    (atEntry m c main_arg4) ⟨t.val * 2000 + p.val, by omega⟩ p q ?_ ?_ ?_).trans ?_
  · intro k
    show atEntry m c main_v75 (((cfg0.win 0).blk t).view.emb (ix2 p k)) = atEntry m c main_v75 _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 512 + 1 * k.val = k.val; omega
  · intro k
    show atEntry m c main_v76 (((cfg0.win 1).blk t).view.emb (ix2 k q)) = atEntry m c main_v76 _
    refine congrArg _ (funext fun a => Fin.ext ?_)
    match a with
    | ⟨0, _⟩ => show win0_1.index t (0 : Fin 2) * 512 + 1 * k.val = k.val; omega
    | ⟨1, _⟩ => show win0_1.index t (1 : Fin 2) * 256 + 1 * q.val = q.val; omega
  · show atEntry m c main_arg4 (((cfg0.win 2).blk t).view.emb (ix1 q)) = atEntry m c main_arg4 _
    refine congrArg _ (funext fun a => Fin.ext ?_)
    match a with
    | ⟨0, _⟩ => show win0_2.index t (0 : Fin 1) * 256 + 1 * q.val = q.val; omega
  · show projected m c _ = projected m c (((cfg0.win 3).blk t).view.emb (ix2 p q))
    refine congrArg _ (funext fun a => Fin.ext ?_)
    match a with
    | ⟨0, _⟩ => show t.val * 2000 + p.val = win0_3.index t (0 : Fin 2) * 2000 + 1 * p.val; omega
    | ⟨1, _⟩ => show q.val = win0_3.index t (1 : Fin 2) * 256 + 1 * q.val; omega

/-- An index of the output array is in point t's block iff each coordinate is in the block's range on its axis. -/
theorem mem_block (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v77).slice (win0_3.rect t)).set ↔ _
  rw [View.set_slice_whole, Rect.mem_set_unit]
  exact Iff.rfl

/-- Every row lies in the block of the point row / 2000. -/
theorem covered (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by omega⟩
  obtain ⟨e0, e1, e2, e3, e4, e5, e6⟩ := index_facts t
  have e5' : win0_3.index t (0 : Fin 2) = (i 0).val / 2000 := e5
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the run: the projected array. -/
theorem final_out (c : Dev nD) : (pdata m 0 c).arrAt 3 cfg0.N = projected m c :=
  (pdata m 0 c).arrAt_eq_of_cover 3 (projected m c) (fun t _ => flushed_eq m c t) covered

/-- The run re-posted: the result array at the projected array, the argument arrays unchanged. -/
theorem run_value : θ_run defs (onTc (τ := τ) (main (F := Ideal))) ⟨m, fun _ => 0, ρ⟩ (fun r => ∀ c : Dev nD,
      r.2.mem ((c.tc : Thread nD τ).loc main_v77) = projected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 3).trans (final_out m c),
     ((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 2).trans (((pdata m 0 c).arrAt_in 2 rfl _).trans ((arrays_eq m c 2).trans (entry_arg4 m c)))⟩) (run_main m ρ)

end Cert.KernelIdeal.ArrayValue

end
-- ==== Proof.LibFold.lean ====
/-
  A general fact about a straight line of host operations: the contents the buffers hold after two lines run one
  after the other are what the second line makes of what the first line left.
-/
import Idealize.ShloMosaic.Lib.StableHlo.Run

noncomputable section

namespace Cert.LibFold

open Idealize.ShloMosaic Idealize.ShloMosaic.StableHlo

/-- The fold of two lines run one after the other is the fold of the second over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibFold

end
-- ==== Proof.Ideal.HostSplit.lean ====
/-
  The kernel program's host lines, cut before the join. The last stretch of host lines is 74
  operations of the propagation's third part followed by three: the join of the node features and
  the three propagated rounds into a [50000, 512] array, and the two changes of float format (of the
  joined array and of the projection matrix). So what the launch finds in a buffer is what those
  three operations make of what all the earlier host lines left.
-/
import proofs.«118303_j65876208386531_1_alg».proof.Proof.Ideal.Entry
import proofs.«118303_j65876208386531_1_alg».proof.Proof.LibFold

set_option maxRecDepth 16384

noncomputable section

namespace Cert.KernelIdeal.HostSplit

open Idealize.ShloMosaic Idealize.ShloMosaic.TcCoe Idealize.ShloMosaic.StableHlo
open Idealize.SL Idealize.SL.Sem
open Cert.KernelIdeal Cert.KernelIdeal.Gen Cert.KernelIdeal.Entry

variable {F : FTy → Type} [FloatOps F]

/-- The last stretch's first 74 operations: the rest of the propagation. -/
abbrev lastRounds : List (HloOp τ sig (Elt F)) :=
  [ StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v20 main_arg2 main_v21 (mulf : (⟨S800000, .f32⟩ : BufTy).Contents (Elt F) → (⟨S800000, .f32⟩ : BufTy).Contents (Elt F) → (⟨S800000, .f32⟩ : BufTy).Contents (Elt F)),
    StableHlo.nullary main_c_5 (constantI S_ 32 0#32),
    StableHlo.unary main_c_5 main_v22 (broadcastInDim S800000 ![] bcast_S_S800000 : (⟨S_, .i32⟩ : BufTy).Contents (Elt F) → (⟨S800000, .i32⟩ : BufTy).Contents (Elt F)),
    StableHlo.binary main_v3 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v24 (broadcastInDim S800000 ![] bcast_S_S800000 : (⟨S_, .i32⟩ : BufTy).Contents (Elt F) → (⟨S800000, .i32⟩ : BufTy).Contents (Elt F)),
    StableHlo.binary main_v3 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v21 main_v28 main_v29 (mulf : (⟨S800000, .f32⟩ : BufTy).Contents (Elt F) → (⟨S800000, .f32⟩ : BufTy).Contents (Elt F) → (⟨S800000, .f32⟩ : BufTy).Contents (Elt F)),
    StableHlo.nullary main_v30 (iotaInDim S50000 32 0),
    StableHlo.binary main_v1 main_v30 main_v31 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v30 main_v32 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_7 (constant S_ .f32 0x3F800000#32),
    StableHlo.unary main_cst_7 main_v33 (broadcastInDim S50000 ![] bcast_S_S50000 : (⟨S_, .f32⟩ : BufTy).Contents (Elt F) → (⟨S50000, .f32⟩ : BufTy).Contents (Elt F)),
    StableHlo.binary main_v29 main_v33 main_v34 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_c_8 (constantI S_ 32 0#32),
    StableHlo.unary main_c_8 main_v35 (broadcastInDim S850000 ![] bcast_S_S850000 : (⟨S_, .i32⟩ : BufTy).Contents (Elt F) → (⟨S850000, .i32⟩ : BufTy).Contents (Elt F)),
    StableHlo.binary main_v32 main_v35 main_v36 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v37 (broadcastInDim S850000 ![] bcast_S_S850000 : (⟨S_, .i32⟩ : BufTy).Contents (Elt F) → (⟨S850000, .i32⟩ : BufTy).Contents (Elt F)),
    StableHlo.binary main_v32 main_v37 main_v38 (addi : (⟨S850000, .i32⟩ : BufTy).Contents (Elt F) → (⟨S850000, .i32⟩ : BufTy).Contents (Elt F) → (⟨S850000, .i32⟩ : BufTy).Contents (Elt F)),
    StableHlo.ternary main_v36 main_v38 main_v32 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v39 main_v40 (broadcastInDim S850000x1 ![0] bcast_S850000_S850000x1_0 : (⟨S850000, .i32⟩ : BufTy).Contents (Elt F) → (⟨S850000x1, .i32⟩ : BufTy).Contents (Elt F)),
    StableHlo.binary main_arg0 main_v40 main_v41 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v34 main_v42 (broadcastInDim S850000x1 ![0] bcast_S850000_S850000x1_0 : (⟨S850000, .f32⟩ : BufTy).Contents (Elt F) → (⟨S850000x1, .f32⟩ : BufTy).Contents (Elt F)),
    StableHlo.unary main_v42 main_v43 (broadcastInDim S850000x128 ![0, 1] bcast_S850000x1_S850000x128_0_1 : (⟨S850000x1, .f32⟩ : BufTy).Contents (Elt F) → (⟨S850000x128, .f32⟩ : BufTy).Contents (Elt F)),
    StableHlo.binary main_v41 main_v43 main_v44 (mulf : (⟨S850000x128, .f32⟩ : BufTy).Contents (Elt F) → (⟨S850000x128, .f32⟩ : BufTy).Contents (Elt F) → (⟨S850000x128, .f32⟩ : BufTy).Contents (Elt F)),
    StableHlo.nullary main_cst_10 (constant S_ .f32 0x00000000#32),
    StableHlo.unary main_cst_10 main_v45 (broadcastInDim S50000x128 ![] bcast_S_S50000x128 : (⟨S_, .f32⟩ : BufTy).Contents (Elt F) → (⟨S50000x128, .f32⟩ : BufTy).Contents (Elt F)),
    StableHlo.unary main_v31 main_v46 (broadcastInDim S850000x1 ![0] bcast_S850000_S850000x1_0 : (⟨S850000, .i32⟩ : BufTy).Contents (Elt F) → (⟨S850000x1, .i32⟩ : BufTy).Contents (Elt F)),
    StableHlo.ternary main_v45 main_v46 main_v44 main_v47 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_c_11 (constantI S_ 32 0#32),
    StableHlo.unary main_c_11 main_v48 (broadcastInDim S850000 ![] bcast_S_S850000 : (⟨S_, .i32⟩ : BufTy).Contents (Elt F) → (⟨S850000, .i32⟩ : BufTy).Contents (Elt F)),
    StableHlo.binary main_v32 main_v48 main_v49 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v50 (broadcastInDim S850000 ![] bcast_S_S850000 : (⟨S_, .i32⟩ : BufTy).Contents (Elt F) → (⟨S850000, .i32⟩ : BufTy).Contents (Elt F)),
    StableHlo.binary main_v32 main_v50 main_v51 (addi : (⟨S850000, .i32⟩ : BufTy).Contents (Elt F) → (⟨S850000, .i32⟩ : BufTy).Contents (Elt F) → (⟨S850000, .i32⟩ : BufTy).Contents (Elt F)),
    StableHlo.ternary main_v49 main_v51 main_v32 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v52 main_v53 (broadcastInDim S850000x1 ![0] bcast_S850000_S850000x1_0 : (⟨S850000, .i32⟩ : BufTy).Contents (Elt F) → (⟨S850000x1, .i32⟩ : BufTy).Contents (Elt F)),
    StableHlo.binary main_v47 main_v53 main_v54 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v34 main_v55 (broadcastInDim S850000x1 ![0] bcast_S850000_S850000x1_0 : (⟨S850000, .f32⟩ : BufTy).Contents (Elt F) → (⟨S850000x1, .f32⟩ : BufTy).Contents (Elt F)),
    StableHlo.unary main_v55 main_v56 (broadcastInDim S850000x128 ![0, 1] bcast_S850000x1_S850000x128_0_1 : (⟨S850000x1, .f32⟩ : BufTy).Contents (Elt F) → (⟨S850000x128, .f32⟩ : BufTy).Contents (Elt F)),
    StableHlo.binary main_v54 main_v56 main_v57 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v58 (broadcastInDim S50000x128 ![] bcast_S_S50000x128 : (⟨S_, .f32⟩ : BufTy).Contents (Elt F) → (⟨S50000x128, .f32⟩ : BufTy).Contents (Elt F)),
    StableHlo.unary main_v31 main_v59 (broadcastInDim S850000x1 ![0] bcast_S850000_S850000x1_0 : (⟨S850000, .i32⟩ : BufTy).Contents (Elt F) → (⟨S850000x1, .i32⟩ : BufTy).Contents (Elt F)),
    StableHlo.ternary main_v58 main_v59 main_v57 main_v60 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_c_14 (constantI S_ 32 0#32),
    StableHlo.unary main_c_14 main_v61 (broadcastInDim S850000 ![] bcast_S_S850000 : (⟨S_, .i32⟩ : BufTy).Contents (Elt F) → (⟨S850000, .i32⟩ : BufTy).Contents (Elt F)),
    StableHlo.binary main_v32 main_v61 main_v62 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v63 (broadcastInDim S850000 ![] bcast_S_S850000 : (⟨S_, .i32⟩ : BufTy).Contents (Elt F) → (⟨S850000, .i32⟩ : BufTy).Contents (Elt F)),
    StableHlo.binary main_v32 main_v63 main_v64 (addi : (⟨S850000, .i32⟩ : BufTy).Contents (Elt F) → (⟨S850000, .i32⟩ : BufTy).Contents (Elt F) → (⟨S850000, .i32⟩ : BufTy).Contents (Elt F)),
    StableHlo.ternary main_v62 main_v64 main_v32 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v65 main_v66 (broadcastInDim S850000x1 ![0] bcast_S850000_S850000x1_0 : (⟨S850000, .i32⟩ : BufTy).Contents (Elt F) → (⟨S850000x1, .i32⟩ : BufTy).Contents (Elt F)),
    StableHlo.binary main_v60 main_v66 main_v67 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v34 main_v68 (broadcastInDim S850000x1 ![0] bcast_S850000_S850000x1_0 : (⟨S850000, .f32⟩ : BufTy).Contents (Elt F) → (⟨S850000x1, .f32⟩ : BufTy).Contents (Elt F)),
    StableHlo.unary main_v68 main_v69 (broadcastInDim S850000x128 ![0, 1] bcast_S850000x1_S850000x128_0_1 : (⟨S850000x1, .f32⟩ : BufTy).Contents (Elt F) → (⟨S850000x128, .f32⟩ : BufTy).Contents (Elt F)),
    StableHlo.binary main_v67 main_v69 main_v70 (mulf : (⟨S850000x128, .f32⟩ : BufTy).Contents (Elt F) → (⟨S850000x128, .f32⟩ : BufTy).Contents (Elt F) → (⟨S850000x128, .f32⟩ : BufTy).Contents (Elt F)),
    StableHlo.nullary main_cst_16 (constant S_ .f32 0x00000000#32),
    StableHlo.unary main_cst_16 main_v71 (broadcastInDim S50000x128 ![] bcast_S_S50000x128 : (⟨S_, .f32⟩ : BufTy).Contents (Elt F) → (⟨S50000x128, .f32⟩ : BufTy).Contents (Elt F)),
    StableHlo.unary main_v31 main_v72 (broadcastInDim S850000x1 ![0] bcast_S850000_S850000x1_0 : (⟨S850000, .i32⟩ : BufTy).Contents (Elt F) → (⟨S850000x1, .i32⟩ : BufTy).Contents (Elt F)),
    StableHlo.ternary main_v71 main_v72 main_v70 main_v73 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The last stretch's last 3 operations: the join and the two changes of float format. -/
abbrev joinAndConvert : List (HloOp τ sig (Elt F)) :=
  [ StableHlo.nary ![main_arg0, main_v47, main_v60, main_v73] main_v74 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    StableHlo.unary main_v74 main_v75 ((truncf .bf16 · bitsLt_bf16_f32) : (⟨S50000x512, .f32⟩ : BufTy).Contents (Elt F) → (⟨S50000x512, .bf16⟩ : BufTy).Contents (Elt F)),
    StableHlo.unary main_arg3 main_v76 ((truncf .bf16 · bitsLt_bf16_f32) : (⟨S512x256, .f32⟩ : BufTy).Contents (Elt F) → (⟨S512x256, .bf16⟩ : BufTy).Contents (Elt F)) ]

/-- The last stretch is the two parts, in order. -/
theorem lastStretch_split : (hostOps0_4 : List (HloOp τ sig (Elt F))) = lastRounds ++ joinAndConvert := rfl

/-- All the host lines before the join, in order. -/
abbrev beforeJoin : List (HloOp τ sig (Elt F)) := hostOps0 ++ (hostOps0_1 ++ (hostOps0_2 ++ (hostOps0_3 ++ lastRounds)))

/-- The host lines are the lines before the join, then the join and the two changes of format. -/
theorem hostLines_split : List.flatten (hostLines (F := F)) = beforeJoin ++ joinAndConvert := by
  simp only [hostLines, List.flatten_cons, List.flatten_nil, List.append_nil, lastStretch_split, List.append_assoc]

variable (m : (ℓ : Loc nD τ sig) → Buf (Elt F) ℓ)

/-- What the launch finds in a buffer: the join and the changes of format over what the earlier lines left. -/
theorem atEntry_split (c : Dev nD) (b : Ref sig .tc) :
    atEntry m c b = after joinAndConvert (after beforeJoin (fun b => m (c, b))) (Proc.devRef .tc b) := by
  unfold atEntry
  rw [hostLines_split, Cert.LibFold.after_append]

end Cert.KernelIdeal.HostSplit

end
-- ==== Proof.RefOps.lean ====
/-
  The reference program as a list of its host operations, and its run. The 105 operations of @main
  (a called function's operations standing at its call) fall into two parts: the first 97 are the
  propagation — node degrees, normalised edge weights, three rounds of gather · scale · scatter-add —,
  the last 8 are the dense layer — the join of the node features and the three propagated rounds
  into a [50000, 512] array, its product with the projection matrix, the bias broadcast down the
  rows, the maximum with zero. A
  straight line of host operations terminates without fault, and leaves every buffer at the fold
  of the operations' results over the launch contents; the fold over the whole list is the fold
  over the dense layer of the fold over the propagation.
-/
import proofs.«118303_j65876208386531_1_alg».proof.Proof.Gen.ReferenceIdeal
import Idealize.ShloMosaic.Lib.StableHlo.Run
import proofs.«118303_j65876208386531_1_alg».proof.Proof.LibFold

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The propagation: @main's first 97 operations, in order, ending with the third round's scatter-add. -/
abbrev propagation : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    unary main_v1 main_v5 (broadcastInDim S800000x1 ![0] bcast_S800000_S800000x1_0 : (⟨S800000, .i32⟩ : BufTy).Contents (Elt F) → (⟨S800000x1, .i32⟩ : BufTy).Contents (Elt F)),
    ternary main_v4 main_v5 main_arg2 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_0 (constant S_ .f32 0x00000000#32),
    unary main_cst_0 main_v7 (broadcastInDim S50000 ![] bcast_S_S50000 : (⟨S_, .f32⟩ : BufTy).Contents (Elt F) → (⟨S50000, .f32⟩ : BufTy).Contents (Elt F)),
    binary main_v6 main_v7 main_v8 (cmpf .ogt : (⟨S50000, .f32⟩ : BufTy).Contents (Elt F) → (⟨S50000, .f32⟩ : BufTy).Contents (Elt F) → (⟨S50000, .i1⟩ : BufTy).Contents (Elt F)),
    nullary main_cst_1 (constant S_ .f32 0x00000000#32),
    unary main_cst_1 main_v9 (broadcastInDim S50000 ![] bcast_S_S50000 : (⟨S_, .f32⟩ : BufTy).Contents (Elt F) → (⟨S50000, .f32⟩ : BufTy).Contents (Elt F)),
    binary main_v6 main_v9 main_v10 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v10) (TRef.of (T := ⟨S50000, .f32⟩) main_v6) (TRef.of (T := ⟨S50000, .f32⟩) main_call0_v1) (TRef.of (T := ⟨S50000, .f32⟩) main_v11) select,
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v8) (TRef.of (T := ⟨S50000, .f32⟩) main_v12) (TRef.of (T := ⟨S50000, .f32⟩) main_call1_v1) (TRef.of (T := ⟨S50000, .f32⟩) main_v13) select,
    nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v1 main_v14 main_v15 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v16 (broadcastInDim S800000 ![] bcast_S_S800000 : (⟨S_, .i32⟩ : BufTy).Contents (Elt F) → (⟨S800000, .i32⟩ : BufTy).Contents (Elt F)),
    binary main_v1 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v20 main_arg2 main_v21 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)),
    nullary main_v30 (iotaInDim S50000 32 0),
    binary main_v1 main_v30 main_v31 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v30 main_v32 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_7 (constant S_ .f32 0x3F800000#32),
    unary main_cst_7 main_v33 (broadcastInDim S50000 ![] bcast_S_S50000 : (⟨S_, .f32⟩ : BufTy).Contents (Elt F) → (⟨S50000, .f32⟩ : BufTy).Contents (Elt F)),
    binary main_v29 main_v33 main_v34 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_c_8 (constantI S_ 32 0#32),
    unary main_c_8 main_v35 (broadcastInDim S850000 ![] bcast_S_S850000 : (⟨S_, .i32⟩ : BufTy).Contents (Elt F) → (⟨S850000, .i32⟩ : BufTy).Contents (Elt F)),
    binary main_v32 main_v35 main_v36 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v37 (broadcastInDim S850000 ![] bcast_S_S850000 : (⟨S_, .i32⟩ : BufTy).Contents (Elt F) → (⟨S850000, .i32⟩ : BufTy).Contents (Elt F)),
    binary main_v32 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v32 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_arg0 main_v40 main_v41 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v34 main_v42 (broadcastInDim S850000x1 ![0] bcast_S850000_S850000x1_0 : (⟨S850000, .f32⟩ : BufTy).Contents (Elt F) → (⟨S850000x1, .f32⟩ : BufTy).Contents (Elt F)),
    unary main_v42 main_v43 (broadcastInDim S850000x128 ![0, 1] bcast_S850000x1_S850000x128_0_1 : (⟨S850000x1, .f32⟩ : BufTy).Contents (Elt F) → (⟨S850000x128, .f32⟩ : BufTy).Contents (Elt F)),
    binary main_v41 main_v43 main_v44 (mulf : (⟨S850000x128, .f32⟩ : BufTy).Contents (Elt F) → (⟨S850000x128, .f32⟩ : BufTy).Contents (Elt F) → (⟨S850000x128, .f32⟩ : BufTy).Contents (Elt F)),
    nullary main_cst_10 (constant S_ .f32 0x00000000#32),
    unary main_cst_10 main_v45 (broadcastInDim S50000x128 ![] bcast_S_S50000x128 : (⟨S_, .f32⟩ : BufTy).Contents (Elt F) → (⟨S50000x128, .f32⟩ : BufTy).Contents (Elt F)),
    unary main_v31 main_v46 (broadcastInDim S850000x1 ![0] bcast_S850000_S850000x1_0 : (⟨S850000, .i32⟩ : BufTy).Contents (Elt F) → (⟨S850000x1, .i32⟩ : BufTy).Contents (Elt F)),
    ternary main_v45 main_v46 main_v44 main_v47 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    nullary main_c_11 (constantI S_ 32 0#32),
    unary main_c_11 main_v48 (broadcastInDim S850000 ![] bcast_S_S850000 : (⟨S_, .i32⟩ : BufTy).Contents (Elt F) → (⟨S850000, .i32⟩ : BufTy).Contents (Elt F)),
    binary main_v32 main_v48 main_v49 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v50 (broadcastInDim S850000 ![] bcast_S_S850000 : (⟨S_, .i32⟩ : BufTy).Contents (Elt F) → (⟨S850000, .i32⟩ : BufTy).Contents (Elt F)),
    binary main_v32 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v32 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v47 main_v53 main_v54 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v34 main_v55 (broadcastInDim S850000x1 ![0] bcast_S850000_S850000x1_0 : (⟨S850000, .f32⟩ : BufTy).Contents (Elt F) → (⟨S850000x1, .f32⟩ : BufTy).Contents (Elt F)),
    unary main_v55 main_v56 (broadcastInDim S850000x128 ![0, 1] bcast_S850000x1_S850000x128_0_1 : (⟨S850000x1, .f32⟩ : BufTy).Contents (Elt F) → (⟨S850000x128, .f32⟩ : BufTy).Contents (Elt F)),
    binary main_v54 main_v56 main_v57 (mulf : (⟨S850000x128, .f32⟩ : BufTy).Contents (Elt F) → (⟨S850000x128, .f32⟩ : BufTy).Contents (Elt F) → (⟨S850000x128, .f32⟩ : BufTy).Contents (Elt F)),
    nullary main_cst_13 (constant S_ .f32 0x00000000#32),
    unary main_cst_13 main_v58 (broadcastInDim S50000x128 ![] bcast_S_S50000x128 : (⟨S_, .f32⟩ : BufTy).Contents (Elt F) → (⟨S50000x128, .f32⟩ : BufTy).Contents (Elt F)),
    unary main_v31 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    nullary main_c_14 (constantI S_ 32 0#32),
    unary main_c_14 main_v61 (broadcastInDim S850000 ![] bcast_S_S850000 : (⟨S_, .i32⟩ : BufTy).Contents (Elt F) → (⟨S850000, .i32⟩ : BufTy).Contents (Elt F)),
    binary main_v32 main_v61 main_v62 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v63 (broadcastInDim S850000 ![] bcast_S_S850000 : (⟨S_, .i32⟩ : BufTy).Contents (Elt F) → (⟨S850000, .i32⟩ : BufTy).Contents (Elt F)),
    binary main_v32 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v32 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v60 main_v66 main_v67 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v34 main_v68 (broadcastInDim S850000x1 ![0] bcast_S850000_S850000x1_0 : (⟨S850000, .f32⟩ : BufTy).Contents (Elt F) → (⟨S850000x1, .f32⟩ : BufTy).Contents (Elt F)),
    unary main_v68 main_v69 (broadcastInDim S850000x128 ![0, 1] bcast_S850000x1_S850000x128_0_1 : (⟨S850000x1, .f32⟩ : BufTy).Contents (Elt F) → (⟨S850000x128, .f32⟩ : BufTy).Contents (Elt F)),
    binary main_v67 main_v69 main_v70 (mulf : (⟨S850000x128, .f32⟩ : BufTy).Contents (Elt F) → (⟨S850000x128, .f32⟩ : BufTy).Contents (Elt F) → (⟨S850000x128, .f32⟩ : BufTy).Contents (Elt F)),
    nullary main_cst_16 (constant S_ .f32 0x00000000#32),
    unary main_cst_16 main_v71 (broadcastInDim S50000x128 ![] bcast_S_S50000x128 : (⟨S_, .f32⟩ : BufTy).Contents (Elt F) → (⟨S50000x128, .f32⟩ : BufTy).Contents (Elt F)),
    unary main_v31 main_v72 (broadcastInDim S850000x1 ![0] bcast_S850000_S850000x1_0 : (⟨S850000, .i32⟩ : BufTy).Contents (Elt F) → (⟨S850000x1, .i32⟩ : BufTy).Contents (Elt F)),
    ternary main_v71 main_v72 main_v70 main_v73 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The dense layer: @main's last 8 operations, in order, starting with the join of the four feature arrays. -/
abbrev denseLayer : List (HloOp τ sig (Elt F)) :=
  [ nary ![main_arg0, main_v47, main_v60, main_v73] main_v74 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    binary main_v74 main_arg3 main_v75 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg4 main_v76 (broadcastInDim S1x256 ![1] bcast_S256_S1x256_1 : (⟨S256, .f32⟩ : BufTy).Contents (Elt F) → (⟨S1x256, .f32⟩ : BufTy).Contents (Elt F)),
    unary main_v76 main_v77 (broadcastInDim S50000x256 ![0, 1] bcast_S1x256_S50000x256_0_1 : (⟨S1x256, .f32⟩ : BufTy).Contents (Elt F) → (⟨S50000x256, .f32⟩ : BufTy).Contents (Elt F)),
    binary main_v75 main_v77 main_v78 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v78) (TRef.of (T := ⟨S50000x256, .f32⟩) main_call2_v0) (TRef.of (T := ⟨S50000x256, .f32⟩) main_v79) maximumf ]

/-- @main's 105 operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    unary main_v1 main_v5 (broadcastInDim S800000x1 ![0] bcast_S800000_S800000x1_0 : (⟨S800000, .i32⟩ : BufTy).Contents (Elt F) → (⟨S800000x1, .i32⟩ : BufTy).Contents (Elt F)),
    ternary main_v4 main_v5 main_arg2 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_0 (constant S_ .f32 0x00000000#32),
    unary main_cst_0 main_v7 (broadcastInDim S50000 ![] bcast_S_S50000 : (⟨S_, .f32⟩ : BufTy).Contents (Elt F) → (⟨S50000, .f32⟩ : BufTy).Contents (Elt F)),
    binary main_v6 main_v7 main_v8 (cmpf .ogt : (⟨S50000, .f32⟩ : BufTy).Contents (Elt F) → (⟨S50000, .f32⟩ : BufTy).Contents (Elt F) → (⟨S50000, .i1⟩ : BufTy).Contents (Elt F)),
    nullary main_cst_1 (constant S_ .f32 0x00000000#32),
    unary main_cst_1 main_v9 (broadcastInDim S50000 ![] bcast_S_S50000 : (⟨S_, .f32⟩ : BufTy).Contents (Elt F) → (⟨S50000, .f32⟩ : BufTy).Contents (Elt F)),
    binary main_v6 main_v9 main_v10 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v10) (TRef.of (T := ⟨S50000, .f32⟩) main_v6) (TRef.of (T := ⟨S50000, .f32⟩) main_call0_v1) (TRef.of (T := ⟨S50000, .f32⟩) main_v11) select,
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v8) (TRef.of (T := ⟨S50000, .f32⟩) main_v12) (TRef.of (T := ⟨S50000, .f32⟩) main_call1_v1) (TRef.of (T := ⟨S50000, .f32⟩) main_v13) select,
    nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v1 main_v14 main_v15 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v16 (broadcastInDim S800000 ![] bcast_S_S800000 : (⟨S_, .i32⟩ : BufTy).Contents (Elt F) → (⟨S800000, .i32⟩ : BufTy).Contents (Elt F)),
    binary main_v1 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v20 main_arg2 main_v21 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)),
    nullary main_v30 (iotaInDim S50000 32 0),
    binary main_v1 main_v30 main_v31 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v30 main_v32 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_7 (constant S_ .f32 0x3F800000#32),
    unary main_cst_7 main_v33 (broadcastInDim S50000 ![] bcast_S_S50000 : (⟨S_, .f32⟩ : BufTy).Contents (Elt F) → (⟨S50000, .f32⟩ : BufTy).Contents (Elt F)),
    binary main_v29 main_v33 main_v34 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_c_8 (constantI S_ 32 0#32),
    unary main_c_8 main_v35 (broadcastInDim S850000 ![] bcast_S_S850000 : (⟨S_, .i32⟩ : BufTy).Contents (Elt F) → (⟨S850000, .i32⟩ : BufTy).Contents (Elt F)),
    binary main_v32 main_v35 main_v36 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v37 (broadcastInDim S850000 ![] bcast_S_S850000 : (⟨S_, .i32⟩ : BufTy).Contents (Elt F) → (⟨S850000, .i32⟩ : BufTy).Contents (Elt F)),
    binary main_v32 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v32 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_arg0 main_v40 main_v41 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v34 main_v42 (broadcastInDim S850000x1 ![0] bcast_S850000_S850000x1_0 : (⟨S850000, .f32⟩ : BufTy).Contents (Elt F) → (⟨S850000x1, .f32⟩ : BufTy).Contents (Elt F)),
    unary main_v42 main_v43 (broadcastInDim S850000x128 ![0, 1] bcast_S850000x1_S850000x128_0_1 : (⟨S850000x1, .f32⟩ : BufTy).Contents (Elt F) → (⟨S850000x128, .f32⟩ : BufTy).Contents (Elt F)),
    binary main_v41 main_v43 main_v44 (mulf : (⟨S850000x128, .f32⟩ : BufTy).Contents (Elt F) → (⟨S850000x128, .f32⟩ : BufTy).Contents (Elt F) → (⟨S850000x128, .f32⟩ : BufTy).Contents (Elt F)),
    nullary main_cst_10 (constant S_ .f32 0x00000000#32),
    unary main_cst_10 main_v45 (broadcastInDim S50000x128 ![] bcast_S_S50000x128 : (⟨S_, .f32⟩ : BufTy).Contents (Elt F) → (⟨S50000x128, .f32⟩ : BufTy).Contents (Elt F)),
    unary main_v31 main_v46 (broadcastInDim S850000x1 ![0] bcast_S850000_S850000x1_0 : (⟨S850000, .i32⟩ : BufTy).Contents (Elt F) → (⟨S850000x1, .i32⟩ : BufTy).Contents (Elt F)),
    ternary main_v45 main_v46 main_v44 main_v47 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    nullary main_c_11 (constantI S_ 32 0#32),
    unary main_c_11 main_v48 (broadcastInDim S850000 ![] bcast_S_S850000 : (⟨S_, .i32⟩ : BufTy).Contents (Elt F) → (⟨S850000, .i32⟩ : BufTy).Contents (Elt F)),
    binary main_v32 main_v48 main_v49 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v50 (broadcastInDim S850000 ![] bcast_S_S850000 : (⟨S_, .i32⟩ : BufTy).Contents (Elt F) → (⟨S850000, .i32⟩ : BufTy).Contents (Elt F)),
    binary main_v32 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v32 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v47 main_v53 main_v54 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v34 main_v55 (broadcastInDim S850000x1 ![0] bcast_S850000_S850000x1_0 : (⟨S850000, .f32⟩ : BufTy).Contents (Elt F) → (⟨S850000x1, .f32⟩ : BufTy).Contents (Elt F)),
    unary main_v55 main_v56 (broadcastInDim S850000x128 ![0, 1] bcast_S850000x1_S850000x128_0_1 : (⟨S850000x1, .f32⟩ : BufTy).Contents (Elt F) → (⟨S850000x128, .f32⟩ : BufTy).Contents (Elt F)),
    binary main_v54 main_v56 main_v57 (mulf : (⟨S850000x128, .f32⟩ : BufTy).Contents (Elt F) → (⟨S850000x128, .f32⟩ : BufTy).Contents (Elt F) → (⟨S850000x128, .f32⟩ : BufTy).Contents (Elt F)),
    nullary main_cst_13 (constant S_ .f32 0x00000000#32),
    unary main_cst_13 main_v58 (broadcastInDim S50000x128 ![] bcast_S_S50000x128 : (⟨S_, .f32⟩ : BufTy).Contents (Elt F) → (⟨S50000x128, .f32⟩ : BufTy).Contents (Elt F)),
    unary main_v31 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    nullary main_c_14 (constantI S_ 32 0#32),
    unary main_c_14 main_v61 (broadcastInDim S850000 ![] bcast_S_S850000 : (⟨S_, .i32⟩ : BufTy).Contents (Elt F) → (⟨S850000, .i32⟩ : BufTy).Contents (Elt F)),
    binary main_v32 main_v61 main_v62 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v63 (broadcastInDim S850000 ![] bcast_S_S850000 : (⟨S_, .i32⟩ : BufTy).Contents (Elt F) → (⟨S850000, .i32⟩ : BufTy).Contents (Elt F)),
    binary main_v32 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v32 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v60 main_v66 main_v67 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v34 main_v68 (broadcastInDim S850000x1 ![0] bcast_S850000_S850000x1_0 : (⟨S850000, .f32⟩ : BufTy).Contents (Elt F) → (⟨S850000x1, .f32⟩ : BufTy).Contents (Elt F)),
    unary main_v68 main_v69 (broadcastInDim S850000x128 ![0, 1] bcast_S850000x1_S850000x128_0_1 : (⟨S850000x1, .f32⟩ : BufTy).Contents (Elt F) → (⟨S850000x128, .f32⟩ : BufTy).Contents (Elt F)),
    binary main_v67 main_v69 main_v70 (mulf : (⟨S850000x128, .f32⟩ : BufTy).Contents (Elt F) → (⟨S850000x128, .f32⟩ : BufTy).Contents (Elt F) → (⟨S850000x128, .f32⟩ : BufTy).Contents (Elt F)),
    nullary main_cst_16 (constant S_ .f32 0x00000000#32),
    unary main_cst_16 main_v71 (broadcastInDim S50000x128 ![] bcast_S_S50000x128 : (⟨S_, .f32⟩ : BufTy).Contents (Elt F) → (⟨S50000x128, .f32⟩ : BufTy).Contents (Elt F)),
    unary main_v31 main_v72 (broadcastInDim S850000x1 ![0] bcast_S850000_S850000x1_0 : (⟨S850000, .i32⟩ : BufTy).Contents (Elt F) → (⟨S850000x1, .i32⟩ : BufTy).Contents (Elt F)),
    ternary main_v71 main_v72 main_v70 main_v73 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    nary ![main_arg0, main_v47, main_v60, main_v73] main_v74 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    binary main_v74 main_arg3 main_v75 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg4 main_v76 (broadcastInDim S1x256 ![1] bcast_S256_S1x256_1 : (⟨S256, .f32⟩ : BufTy).Contents (Elt F) → (⟨S1x256, .f32⟩ : BufTy).Contents (Elt F)),
    unary main_v76 main_v77 (broadcastInDim S50000x256 ![0, 1] bcast_S1x256_S50000x256_0_1 : (⟨S1x256, .f32⟩ : BufTy).Contents (Elt F) → (⟨S50000x256, .f32⟩ : BufTy).Contents (Elt F)),
    binary main_v75 main_v77 main_v78 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v78) (TRef.of (T := ⟨S50000x256, .f32⟩) main_call2_v0) (TRef.of (T := ⟨S50000x256, .f32⟩) main_v79) maximumf ]

set_option maxRecDepth 8192 in
/-- The whole list is the propagation followed by the dense layer. -/
theorem ops_split : (ops : List (HloOp τ sig (Elt F))) = propagation ++ denseLayer := rfl

set_option maxRecDepth 8192 in
set_option maxHeartbeats 4000000 in
/-- @main is the straight line of its operations. -/
theorem main_eq (c : Dev nD) : main (F := F) c = seq ops := rfl
/-- The signature scopes no buffer and no semaphore: a host program stages nothing. -/
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nary_bufs_sub .., binary_bufs_sub .., unary_bufs_sub .., unary_bufs_sub .., binary_bufs_sub .., nullary_bufs_sub .., unary_bufs_sub .., binary_bufs_sub ..⟩

/-- From any memory with zero counters every weakly fair execution of @main terminates, without fault, and every
    buffer ends at the dense layer's fold of the propagation's fold of the launch contents. -/
theorem run_folded (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after denseLayer (after propagation (launchContents m c)) (Proc.devRef .tc b) :=
  (θ_run defs _ _).mono (fun _ h c b => (h c b).trans (by rw [ops_split, Cert.LibFold.after_append]))
    (run_seq scopedRefs_eq scopedSems_eq defs main (fun _ => ops) main_eq (fun _ => ops_sub) m ρ)

end Cert.ReferenceIdeal.HostRun

end
-- ==== Proof.LibHostDot.lean ====
/-
  A general fact, at the exact instance (floats as extended reals): the host's product of an [M, K] matrix by a
  [K, N] matrix contracted over K, read at (p, q), is the sum over k of x(p, k) · w(k, q); and a vector broadcast
  first to one row [1, N] and then down the rows to [M, N] (the host's two `broadcast_in_dim`s of a bias) reads, at
  (p, q), the vector at q; a scalar broadcast to [M, N] reads the scalar everywhere.
-/
import Idealize.ShloMosaic.PureOps.Ideal.Laws
import Idealize.ShloMosaic.Lib.ValueIdx
import Idealize.ShloMosaic.Lib.Pipeline.Value

noncomputable section

namespace Cert.LibHostDot

open Idealize.ShloMosaic Idealize.ShloMosaic.ValueIdx

variable {α : Type} {M K N : Nat}

/-- The host's product of an [M, K] by a [K, N] matrix, read at (p, q): the sum over the contracted coordinate k of
    x(p, k) · w(k, q). The four hypotheses say which operand coordinate each of the product's index maps takes from
    the output index and which from the contraction index. -/
theorem dotGeneral_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    Host.dotGeneral D prec x w (ix2 p q) = ∑ k : Fin K, x (ix2 p k) * w (ix2 k q) := by
  refine (Ideal.dotGeneral_apply D prec .single x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector broadcast to one row [1, N] and then down the rows to [M, N] reads, at (p, q), the vector at q
    (N is not 1: the vector's axis is a real axis). -/
theorem rowBroadcastInDim_rc (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => show 0 = if (1 : Nat) = 1 then 0 else p.val; rw [if_pos rfl]
    | ⟨1, _⟩ => show q.val = if N = 1 then 0 else q.val; rw [if_neg hN]
  · match a with
    | ⟨0, _⟩ => show q.val = if N = 1 then 0 else q.val; rw [if_neg hN]

/-- A scalar broadcast to any shape reads the scalar at every index. -/
theorem scalarBroadcastInDim_apply {t : Shape} (h : (⟨0, ![]⟩ : Shape).BroadcastsInDim t (![] : Fin 0 → Fin t.rank))
    (x : (⟨0, ![]⟩ : Shape).Idx → α) (j : t.Idx) (u : (⟨0, ![]⟩ : Shape).Idx) :
    broadcastInDim t ![] h x j = x u :=
  broadcastInDim_apply ![] h x j u fun a => a.elim0

end Cert.LibHostDot

end
-- ==== Proof.RefDense.lean ====
/-
  The reference's dense layer and its run, at exact arithmetic. Whatever the propagation left in the
  buffers, the last eight operations leave in the result buffer the array whose entry at (p, q) is
      max( Σ_k H(p,k) · W(k,q) + b(q), 0 ),
  H the join of the four feature arrays, W the projection matrix, b the bias, as the propagation left them: the host's
  product is that sum, the two broadcasts of the bias read b(q), the broadcast zero reads zero, and
  the addition and the maximum act entry by entry. No operation writes an argument array. Hence the
  reference's run: the result at the dense layer of the joined features, the arguments unchanged.
-/
import proofs.«118303_j65876208386531_1_alg».proof.Proof.RefOps
import proofs.«118303_j65876208386531_1_alg».proof.Proof.LibDense
import proofs.«118303_j65876208386531_1_alg».proof.Proof.LibHostDot

set_option maxRecDepth 16384

noncomputable section

namespace Cert.ReferenceIdeal.Dense

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.HostRun Cert.LibDense Cert.LibHostDot

/-! The product's index maps: the left operand takes its row from the output index and its column from the
    contraction index; the right operand its row from the contraction index and its column from the output index. -/

theorem lhs_row (i : S50000x256.Idx) (c : dot_S50000x512_S512x256_S50000x256_1_0_0_1_n_n.contr.Idx) :
    (dot_S50000x512_S512x256_S50000x256_1_0_0_1_n_n.lhsIdx i c 0).val = (i 0).val := by
  unfold DotDims.lhsIdx
  rw [dif_neg (show ¬(0 : Fin S50000x512.rank) ∈ dot_S50000x512_S512x256_S50000x256_1_0_0_1_n_n.lhsBatch by decide),
    dif_pos (show (0 : Fin S50000x512.rank) ∈ dot_S50000x512_S512x256_S50000x256_1_0_0_1_n_n.lhsNonContracting by decide)]
  rfl
theorem lhs_col (i : S50000x256.Idx) (c : dot_S50000x512_S512x256_S50000x256_1_0_0_1_n_n.contr.Idx) :
    (dot_S50000x512_S512x256_S50000x256_1_0_0_1_n_n.lhsIdx i c 1).val = (c ⟨0, by decide⟩).val :=
  dot_S50000x512_S512x256_S50000x256_1_0_0_1_n_n.lhsIdx_val_of_single rfl i c
theorem rhs_row (i : S50000x256.Idx) (c : dot_S50000x512_S512x256_S50000x256_1_0_0_1_n_n.contr.Idx) :
    (dot_S50000x512_S512x256_S50000x256_1_0_0_1_n_n.rhsIdx i c 0).val = (c ⟨0, by decide⟩).val :=
  dot_S50000x512_S512x256_S50000x256_1_0_0_1_n_n.rhsIdx_val_of_single rfl i c
theorem rhs_col (i : S50000x256.Idx) (c : dot_S50000x512_S512x256_S50000x256_1_0_0_1_n_n.contr.Idx) :
    (dot_S50000x512_S512x256_S50000x256_1_0_0_1_n_n.rhsIdx i c 1).val = (i 1).val := by
  unfold DotDims.rhsIdx
  rw [dif_neg (show ¬(1 : Fin S512x256.rank) ∈ dot_S50000x512_S512x256_S50000x256_1_0_0_1_n_n.rhsBatch by decide),
    dif_pos (show (1 : Fin S512x256.rank) ∈ dot_S50000x512_S512x256_S50000x256_1_0_0_1_n_n.rhsNonContracting by decide)]
  rfl

/-- The dense layer's operations composed, entry by entry: the rectified affine map. -/
theorem dense_entrywise (H : FVec Ideal S50000x512 .f32) (W : FVec Ideal S512x256 .f32) (b : FVec Ideal S256 .f32) :
    maximumf (addf (Host.dotGeneral dot_S50000x512_S512x256_S50000x256_1_0_0_1_n_n none H W)
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
      = layer (M := 50000) (K := 512) (N := 256) H W b := by
  funext i
  obtain ⟨p, q, rfl⟩ : ∃ (p : Fin 50000) (q : Fin 256), i = ix2 p q := ⟨i 0, i 1, eq_ix2 i⟩
  have hprod : Host.dotGeneral dot_S50000x512_S512x256_S50000x256_1_0_0_1_n_n none H W (ix2 p q)
      = ∑ k : Fin 512, H (ix2 p k) * W (ix2 k q) :=
    dotGeneral_rc (M := 50000) (K := 512) (N := 256) dot_S50000x512_S512x256_S50000x256_1_0_0_1_n_n rfl rfl
      lhs_row lhs_col rhs_row rhs_col none H W p q
  have hbias : broadcastInDim S50000x256 ![0, 1] bcast_S1x256_S50000x256_0_1 (broadcastInDim S1x256 ![1] bcast_S256_S1x256_1 b) (ix2 p q)
      = b (ix1 q) :=
    rowBroadcastInDim_rc (M := 50000) (N := 256) (by decide) b bcast_S256_S1x256_1 bcast_S1x256_S50000x256_0_1 p q
  have hzero : broadcastInDim S50000x256 ![] bcast_S_S50000x256 (constant (F := Ideal) S_ .f32 0x00000000#32) (ix2 p q) = zeroWord :=
    scalarBroadcastInDim_apply bcast_S_S50000x256 _ (ix2 p q) (fun a => a.elim0)
  rw [layer_apply]
  show max (_ + _) _ = _
  exact congrArg₂ max (congrArg₂ (· + ·) hprod hbias) hzero

/-- The dense layer over ANY contents the propagation may have left: the result buffer ends at the rectified affine
    map of the join of what the four feature buffers hold, of the matrix buffer's and of the bias buffer's contents. -/
theorem dense_value (Vp : Valuation τ sig (Elt Ideal)) :
    after denseLayer Vp (Proc.devRef .tc main_v79)
      = layer (M := 50000) (K := 512) (N := 256)
          (concatenate S50000x512 1 [⟨S50000x128, Vp (Proc.devRef .tc main_arg0)⟩, ⟨S50000x128, Vp (Proc.devRef .tc main_v47)⟩,
            ⟨S50000x128, Vp (Proc.devRef .tc main_v60)⟩, ⟨S50000x128, Vp (Proc.devRef .tc main_v73)⟩]
            concatenates_S50000x128_S50000x128_S50000x128_S50000x128_S50000x512_d1)
          (Vp (Proc.devRef .tc main_arg3)) (Vp (Proc.devRef .tc main_arg4)) := by
  after_results_simp
  exact dense_entrywise _ _ _

/-- The dense layer writes no argument array. -/
theorem dense_keeps (Vp : Valuation τ sig (Elt Ideal)) (b : Ref sig .tc)
    (hb : b = main_arg0 ∨ b = main_arg1 ∨ b = main_arg2 ∨ b = main_arg3 ∨ b = main_arg4) :
    after denseLayer Vp (Proc.devRef .tc b) = Vp (Proc.devRef .tc b) := by
  rcases hb with rfl | rfl | rfl | rfl | rfl <;> after_results_simp

/-- Closes "no operation of the propagation writes this argument". -/
local macro "propagation_keeps" : tactic => `(tactic| (
  refine StableHlo.after_of_forall_not_mem _ _ (List.forall_iff_forall_mem.mp ?_)
  simp only [List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

variable (m : (ℓ : Loc nD τ sig) → Buf (Elt Ideal) ℓ)

set_option maxHeartbeats 4000000 in
theorem propagation_keeps0 (c : Dev nD) : after propagation (launchContents m c) (Proc.devRef .tc main_arg0) = m ((c.tc : Thread nD τ).loc main_arg0) := by
  propagation_keeps
set_option maxHeartbeats 4000000 in
theorem propagation_keeps1 (c : Dev nD) : after propagation (launchContents m c) (Proc.devRef .tc main_arg1) = m ((c.tc : Thread nD τ).loc main_arg1) := by
  propagation_keeps
set_option maxHeartbeats 4000000 in
theorem propagation_keeps2 (c : Dev nD) : after propagation (launchContents m c) (Proc.devRef .tc main_arg2) = m ((c.tc : Thread nD τ).loc main_arg2) := by
  propagation_keeps
set_option maxHeartbeats 4000000 in
theorem propagation_keeps3 (c : Dev nD) : after propagation (launchContents m c) (Proc.devRef .tc main_arg3) = m ((c.tc : Thread nD τ).loc main_arg3) := by
  propagation_keeps
set_option maxHeartbeats 4000000 in
theorem propagation_keeps4 (c : Dev nD) : after propagation (launchContents m c) (Proc.devRef .tc main_arg4) = m ((c.tc : Thread nD τ).loc main_arg4) := by
  propagation_keeps

/-- The joined features as the reference forms them: the node features and the three propagated rounds, as the
    propagation left them, side by side. -/
def joined (c : Dev nD) : (⟨S50000x512, .f32⟩ : BufTy).Contents (Elt Ideal) :=
  concatenate S50000x512 1
    [⟨S50000x128, after propagation (launchContents m c) (Proc.devRef .tc main_arg0)⟩,
     ⟨S50000x128, after propagation (launchContents m c) (Proc.devRef .tc main_v47)⟩,
     ⟨S50000x128, after propagation (launchContents m c) (Proc.devRef .tc main_v60)⟩,
     ⟨S50000x128, after propagation (launchContents m c) (Proc.devRef .tc main_v73)⟩]
    concatenates_S50000x128_S50000x128_S50000x128_S50000x128_S50000x512_d1

/-- The reference's run: the result at the dense layer of the joined features, the matrix and the bias; the argument
    arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v79)
          = layer (M := 50000) (K := 512) (N := 256) (joined m c) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v79).trans ((dense_value _).trans (by rw [propagation_keeps3 m c, propagation_keeps4 m c]; rfl)),
     (h c main_arg0).trans ((dense_keeps _ _ (.inl rfl)).trans (propagation_keeps0 m c)),
     (h c main_arg1).trans ((dense_keeps _ _ (.inr (.inl rfl))).trans (propagation_keeps1 m c)),
     (h c main_arg2).trans ((dense_keeps _ _ (.inr (.inr (.inl rfl)))).trans (propagation_keeps2 m c)),
     (h c main_arg3).trans ((dense_keeps _ _ (.inr (.inr (.inr (.inl rfl))))).trans (propagation_keeps3 m c)),
     (h c main_arg4).trans ((dense_keeps _ _ (.inr (.inr (.inr (.inr rfl))))).trans (propagation_keeps4 m c))⟩)
    (run_folded m ρ)

end Cert.ReferenceIdeal.Dense

end
-- ==== Proof.Ideal.EntryValue.lean ====
/-
  What the launch finds in the two arrays the host lines computed, at exact arithmetic. The array
  the kernel's first window stages is the join of the node features and the three propagated
  rounds, and the array its second window stages is the projection matrix: both up to a change of
  float format, which at exact arithmetic changes nothing. The kernel program's host lines before
  the join are, operation for operation, the reference's propagation: the same operations applied
  to the same operands in the same order. So from argument arrays that agree the two programs leave
  the same node features and the same three propagated rounds, hence form the same joined features.
-/
import proofs.«118303_j65876208386531_1_alg».proof.Proof.Ideal.HostSplit
import proofs.«118303_j65876208386531_1_alg».proof.Proof.RefDense

set_option maxRecDepth 16384

noncomputable section

namespace Cert.KernelIdeal.EntryValue

open Idealize.ShloMosaic Idealize.ShloMosaic.TcCoe Idealize.ShloMosaic.StableHlo
open Idealize.SL Idealize.SL.Sem
open Cert.KernelIdeal Cert.KernelIdeal.Gen Cert.KernelIdeal.Entry Cert.KernelIdeal.HostSplit

/-- The join and the change of format over ANY contents the earlier lines may have left: the first window's array is
    the four feature buffers' contents side by side (the change of format is the identity at exact arithmetic). -/
theorem features_over (W : Valuation τ sig (Elt Ideal)) :
    after joinAndConvert W (Proc.devRef .tc main_v75)
      = concatenate S50000x512 1 [⟨S50000x128, W (Proc.devRef .tc main_arg0)⟩, ⟨S50000x128, W (Proc.devRef .tc main_v47)⟩,
          ⟨S50000x128, W (Proc.devRef .tc main_v60)⟩, ⟨S50000x128, W (Proc.devRef .tc main_v73)⟩]
          concatenates_S50000x128_S50000x128_S50000x128_S50000x128_S50000x512_d1 := by
  after_results_simp
  rfl

/-- Likewise the second window's array is the matrix buffer's contents. -/
theorem matrix_over (W : Valuation τ sig (Elt Ideal)) :
    after joinAndConvert W (Proc.devRef .tc main_v76) = W (Proc.devRef .tc main_arg3) := by
  after_results_simp
  rfl

variable (m : (ℓ : Loc nD τ sig) → Buf (Elt Ideal) ℓ)

/-- Two arrays laid end to end along an axis, as a function of the two arrays: the side condition speaks of the two
    shapes only, so either array may be replaced by an equal one. -/
def endToEnd {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = endToEnd t a s₁ s₂ h x y := rfl

/-- Computes a fold of host operations at a buffer: each operation's result at its own buffer is its function of its
    operands' contents, at any other buffer what was there; two arrays laid end to end are read as that function of the two, so that
    each is computed in turn. -/
local macro "fold_results" : tactic =>
  `(tactic| (simp (disch := decide) only [after_cons, after_nil, launchContents,
      nullary_result', unary_result', binary_result', ternary_result', reshape_result', concatenate_pair,
      nullary_result_ne', unary_result_ne', binary_result_ne', ternary_result_ne', reshape_result_ne', nary_result_ne']))

/-- Unfolds both programs' lines before the join into literal lists. -/
local macro "open_lines" : tactic =>
  `(tactic| (simp only [Cert.ReferenceIdeal.HostRun.propagation, beforeJoin, hostOps0, hostOps0_1, hostOps0_2, hostOps0_3, lastRounds, List.cons_append, List.nil_append,
      launchContents]))

set_option maxHeartbeats 42000000 in
/-- No line before the join writes the projection matrix. -/
theorem matrix_kept (c : Dev nD) :
    after beforeJoin (fun b => m (c, b)) (Proc.devRef .tc main_arg3) = m ((c.tc : Thread nD τ).loc main_arg3) := by
  open_lines
  fold_results

/-- The second window's array at the launch: the projection matrix. -/
theorem entry_matrix (c : Dev nD) : atEntry m c main_v76 = m ((c.tc : Thread nD τ).loc main_arg3) := by
  rw [atEntry_split, matrix_over, matrix_kept]

variable (m' : (ℓ : Loc Cert.ReferenceIdeal.nD Cert.ReferenceIdeal.τ Cert.ReferenceIdeal.sig) → Buf (Elt Ideal) ℓ)

section Agree

variable (c : Dev nD)
  (h0 : m' (c, Proc.devRef .tc Cert.ReferenceIdeal.main_arg0) = m (c, Proc.devRef .tc main_arg0))
  (h1 : m' (c, Proc.devRef .tc Cert.ReferenceIdeal.main_arg1) = m (c, Proc.devRef .tc main_arg1))
  (h2 : m' (c, Proc.devRef .tc Cert.ReferenceIdeal.main_arg2) = m (c, Proc.devRef .tc main_arg2))

set_option maxHeartbeats 42000000 in
include h0 in
/-- The two programs leave the same node features, -/
theorem features0_agree :
    after Cert.ReferenceIdeal.HostRun.propagation (launchContents m' c) (Proc.devRef .tc Cert.ReferenceIdeal.main_arg0)
      = after beforeJoin (fun b => m (c, b)) (Proc.devRef .tc main_arg0) := by
  open_lines
  fold_results
  exact h0

set_option maxHeartbeats 42000000 in
include h0 h1 h2 in
/-- the same first round, -/
theorem round1_agree :
    after Cert.ReferenceIdeal.HostRun.propagation (launchContents m' c) (Proc.devRef .tc Cert.ReferenceIdeal.main_v47)
      = after beforeJoin (fun b => m (c, b)) (Proc.devRef .tc main_v47) := by
  open_lines
  fold_results
  rw [h0, h1, h2]
  rfl

set_option maxHeartbeats 42000000 in
include h0 h1 h2 in
/-- the same second round -/
theorem round2_agree :
    after Cert.ReferenceIdeal.HostRun.propagation (launchContents m' c) (Proc.devRef .tc Cert.ReferenceIdeal.main_v60)
      = after beforeJoin (fun b => m (c, b)) (Proc.devRef .tc main_v60) := by
  open_lines
  fold_results
  rw [h0, h1, h2]
  rfl

set_option maxHeartbeats 42000000 in
include h0 h1 h2 in
/-- and the same third round. -/
theorem round3_agree :
    after Cert.ReferenceIdeal.HostRun.propagation (launchContents m' c) (Proc.devRef .tc Cert.ReferenceIdeal.main_v73)
      = after beforeJoin (fun b => m (c, b)) (Proc.devRef .tc main_v73) := by
  open_lines
  fold_results
  rw [h0, h1, h2]
  rfl

include h0 h1 h2 in
/-- The first window's array at the launch is the reference's joined features, when the node features, the edge
    endpoints and the edge weights the two programs start from agree. -/
theorem joined_agrees : Cert.ReferenceIdeal.Dense.joined m' c = atEntry m c main_v75 := by
  rw [atEntry_split, features_over]
  unfold Cert.ReferenceIdeal.Dense.joined
  rw [features0_agree m m' c h0, round1_agree m m' c h0 h1 h2, round2_agree m m' c h0 h1 h2, round3_agree m m' c h0 h1 h2]

end Agree

end Cert.KernelIdeal.EntryValue

end
-- ==== Proof.lean ====
/-
  The certificate: a graph-propagation layer (degree-normalised edge weights, three rounds of
  gather · scale · scatter-add with self loops, the four feature arrays joined) followed by a dense
  projection  relu(H · W + b).  The kernel program computes the propagation on the host and the
  projection in one pallas_call over 25 blocks of 2000 rows, feeding the matrix unit bf16 copies of
  H and W and accumulating in f32; the reference computes everything on the host in f32.

  Frames. Each kernel program is its host lines, then the launch; the body at a grid point reads
  three whole blocks and stores one whole block, so the library's frame run applies, and no host
  line and no window writes an argument array. The reference is a straight line of host operations.

  Preserves. The idealisation rewrote nothing: there is nothing to state.

  Algebraic. At exact arithmetic a change of float format is the identity, so the kernel's first
  window holds the very array H of joined features the reference forms (the kernel program's host lines up
  to the join are the reference's propagation, operation for operation), its second window holds W and its third b. Block t of
  the kernel's result is rows 2000·t … 2000·t+1999 of  max(Σ_k H(r,k)·W(k,q) + b(q), 0),  the 25 blocks
  tile the rows, and the reference's product, broadcast bias and maximum with zero read entry by entry
  are the same expression. No law beyond the definitions is used, so finiteness of the inputs is not
  needed.
-/
import proofs.«118303_j65876208386531_1_alg».proof.Defs
import proofs.«118303_j65876208386531_1_alg».proof.Proof.Gen.Kernel
import proofs.«118303_j65876208386531_1_alg».proof.Proof.Gen.KernelIdeal
import proofs.«118303_j65876208386531_1_alg».proof.Proof.Gen.ReferenceIdeal
import proofs.«118303_j65876208386531_1_alg».proof.Proof.Gen.Pre_finite_inputs
import proofs.«118303_j65876208386531_1_alg».proof.Proof.Bits.Launch
import proofs.«118303_j65876208386531_1_alg».proof.Proof.Ideal.ArrayValue
import proofs.«118303_j65876208386531_1_alg».proof.Proof.Ideal.EntryValue
import proofs.«118303_j65876208386531_1_alg».proof.Proof.RefDense
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Projection.frame m ρ

theorem frame_kernel_ideal : Cert.frame_KernelIdeal := fun m ρ _ => Cert.KernelIdeal.Projection.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Dense.run m ρ)

theorem preserves : Cert.preserves_Kernel_KernelIdeal := trivial

/-- Both programs end with the result array at the dense layer of the joined features, the matrix and the bias. -/
theorem algebraic : Cert.algebraic_KernelIdeal_ReferenceIdeal := by
  intro m ρ m' ρ' _ hagree
  refine ⟨fun c => Cert.KernelIdeal.ArrayValue.projected m c, Cert.KernelIdeal.ArrayValue.run_value m ρ, ?_⟩
  refine (θ_run Cert.ReferenceIdeal.defs _ _).mono (fun _ h c => ⟨(h c).1.trans ?_, (h c).2⟩)
    (Cert.ReferenceIdeal.Dense.run m' ρ')
  show Cert.LibDense.layer (Cert.ReferenceIdeal.Dense.joined m' c) _ _
    = Cert.LibDense.layer (Cert.KernelIdeal.Entry.atEntry m c Cert.KernelIdeal.main_v75)
        (Cert.KernelIdeal.Entry.atEntry m c Cert.KernelIdeal.main_v76) (Cert.KernelIdeal.Entry.atEntry m c Cert.KernelIdeal.main_arg4)
  rw [Cert.KernelIdeal.EntryValue.joined_agrees m m' c (hagree c).1 (hagree c).2.1 (hagree c).2.2.1,
    (hagree c).2.2.2.1, (hagree c).2.2.2.2, Cert.KernelIdeal.EntryValue.entry_matrix m c, Cert.KernelIdeal.Entry.entry_arg4 m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
